-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v16) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x2048x64 : Shape := ⟨3, ![16, 2048, 64]⟩
abbrev S_ : Shape := ⟨0, ![]⟩

class Facts : Prop where
  bcast_S_S16x2048x64 : S_.BroadcastsInDim S16x2048x64 (![] : Fin 0 → Fin S16x2048x64.rank)
  reducesTo_S16x2048x64_S_d0_1_2 : S16x2048x64.ReducesTo [0, 1, 2] S_
  h_S_ : 0 < S_.numel

variable [Facts]

def fn {F : FTy → Type} [FloatOps F] (main_arg0 : FVec F S16x2048x64 .f32) (main_arg1 : FVec F S16x2048x64 .f32) (main_arg2 : FVec F S16x2048x64 .f32) : IVec S_ 1 :=
  let main_v0 : FVec F S16x2048x64 .f32 := Host.absf main_arg0
  let main_cst : FVec F S_ .f32 := constant S_ .f32 0x7F800000#32
  let main_v1 : FVec F S16x2048x64 .f32 := broadcastInDim S16x2048x64 ![] bcast_S_S16x2048x64 main_cst
  let main_v2 : IVec S16x2048x64 1 := cmpf .olt main_v0 main_v1
  let main_c : IVec S_ 1 := constantI S_ 1 1#1
  let main_v3 : IVec S_ 1 := (fun x v => Host.reduce IntOp.andi x v reducesTo_S16x2048x64_S_d0_1_2 h_S_) main_v2 main_c
  let main_v4 : FVec F S16x2048x64 .f32 := Host.absf main_arg1
  let main_cst_0 : FVec F S_ .f32 := constant S_ .f32 0x7F800000#32
  let main_v5 : FVec F S16x2048x64 .f32 := broadcastInDim S16x2048x64 ![] bcast_S_S16x2048x64 main_cst_0
  let main_v6 : IVec S16x2048x64 1 := cmpf .olt main_v4 main_v5
  let main_c_1 : IVec S_ 1 := constantI S_ 1 1#1
  let main_v7 : IVec S_ 1 := (fun x v => Host.reduce IntOp.andi x v reducesTo_S16x2048x64_S_d0_1_2 h_S_) main_v6 main_c_1
  let main_v8 : IVec S_ 1 := andi main_v3 main_v7
  let main_v9 : FVec F S16x2048x64 .f32 := Host.absf main_arg2
  let main_cst_2 : FVec F S_ .f32 := constant S_ .f32 0x7F800000#32
  let main_v10 : FVec F S16x2048x64 .f32 := broadcastInDim S16x2048x64 ![] bcast_S_S16x2048x64 main_cst_2
  let main_v11 : IVec S16x2048x64 1 := cmpf .olt main_v9 main_v10
  let main_c_3 : IVec S_ 1 := constantI S_ 1 1#1
  let main_v12 : IVec S_ 1 := (fun x v => Host.reduce IntOp.andi x v reducesTo_S16x2048x64_S_d0_1_2 h_S_) main_v11 main_c_3
  let main_v13 : IVec S_ 1 := andi main_v8 main_v12
  main_v13
-- ==== Kernel.lean ====
abbrev S16x2048x64 : Shape := ⟨3, ![16, 2048, 64]⟩
abbrev S1x512x64 : Shape := ⟨3, ![1, 512, 64]⟩
abbrev S1x2048x64 : Shape := ⟨3, ![1, 2048, 64]⟩
abbrev S512x64 : Shape := ⟨2, ![512, 64]⟩
abbrev S2048x64 : Shape := ⟨2, ![2048, 64]⟩
abbrev S512x2048 : Shape := ⟨2, ![512, 2048]⟩
abbrev S512 : Shape := ⟨1, ![512]⟩
abbrev S512x1 : Shape := ⟨2, ![512, 1]⟩

abbrev nBuf : Space → Nat
  | .hbm => 4
  | .vmem => 8
  | .smem => 0
  | _ => 0

abbrev bufTy : (tb : Table) → Fin (tcTables nBuf tb) → BufTy
  | .hbm, ⟨0, _⟩ => ⟨S16x2048x64, .f32⟩
  | .hbm, ⟨1, _⟩ => ⟨S16x2048x64, .f32⟩
  | .hbm, ⟨2, _⟩ => ⟨S16x2048x64, .f32⟩
  | .hbm, ⟨3, _⟩ => ⟨S16x2048x64, .f32⟩
  | .local _ .vmem, ⟨0, _⟩ => ⟨S1x512x64, .f32⟩
  | .local _ .vmem, ⟨1, _⟩ => ⟨S1x512x64, .f32⟩
  | .local _ .vmem, ⟨2, _⟩ => ⟨S1x2048x64, .f32⟩
  | .local _ .vmem, ⟨3, _⟩ => ⟨S1x2048x64, .f32⟩
  | .local _ .vmem, ⟨4, _⟩ => ⟨S1x2048x64, .f32⟩
  | .local _ .vmem, ⟨5, _⟩ => ⟨S1x2048x64, .f32⟩
  | .local _ .vmem, ⟨6, _⟩ => ⟨S1x512x64, .f32⟩
  | .local _ .vmem, ⟨7, _⟩ => ⟨S1x512x64, .f32⟩
  | _, _ => ⟨S16x2048x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![16, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2048x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x2048x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x512x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

class Facts₀ : Prop where
  inb_S1x512x64_S1x512x64_0_0_0 : ∀ a, (![0, 0, 0] : Fin 3 → Nat) a + S1x512x64.size a ≤ S1x512x64.size a
  h_S1x512x64 : 0 < S1x512x64.numel
  shapeCasts_S1x512x64_S512x64 : S1x512x64.ShapeCasts S512x64
  bitsLt_bf16_f32 : FTy.bits .bf16 < FTy.bits .f32
  inb_S1x2048x64_S1x2048x64_0_0_0 : ∀ a, (![0, 0, 0] : Fin 3 → Nat) a + S1x2048x64.size a ≤ S1x2048x64.size a
  h_S1x2048x64 : 0 < S1x2048x64.numel
  shapeCasts_S1x2048x64_S2048x64 : S1x2048x64.ShapeCasts S2048x64
  reduces_S512x2048_S512 : S512x2048.Reduces [1] S512
  shapeCasts_S512_S512x1 : S512.ShapeCasts S512x1
  broadcasts_S512x1_S512x2048 : S512x1.Broadcasts S512x2048
  shapeCasts_S512x64_S1x512x64 : S512x64.ShapeCasts S1x512x64
  dot_S512x64_S2048x64_S512x2048_1_1_0_0_n_n_wf : DotDims.WF S512x64 S2048x64 S512x2048 [1] [1] [0] [0] [] []
  dot_S512x2048_S2048x64_S512x64_1_0_0_1_n_n_wf : DotDims.WF S512x2048 S2048x64 S512x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x64.size a ≤ S16x2048x64.size a
  hwx0_0 : ∀ i : grid0.Coords, EltTy.bits .f32 = 32 ∨ (Rect.block (s := S16x2048x64) S1x512x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x2048x64.size a ≤ S16x2048x64.size a
  hwx0_1 : ∀ i : grid0.Coords, EltTy.bits .f32 = 32 ∨ (Rect.block (s := S16x2048x64) S1x2048x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x2048x64.size a ≤ S16x2048x64.size a
  hwx0_2 : ∀ i : grid0.Coords, EltTy.bits .f32 = 32 ∨ (Rect.block (s := S16x2048x64) S1x2048x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x512x64.size a ≤ S16x2048x64.size a
  hwx0_3 : ∀ i : grid0.Coords, EltTy.bits .f32 = 32 ∨ (Rect.block (s := S16x2048x64) S1x512x64.size (cc0_transform_3 i) (hinb0_3 i)).WholeWords (EltTy.packing .f32)

variable [Facts₀]

def dot_S512x64_S2048x64_S512x2048_1_1_0_0_n_n : DotDims S512x64 S2048x64 S512x2048 where
  lhsContracting := [1]
  rhsContracting := [1]
  lhsNonContracting := [0]
  rhsNonContracting := [0]
  lhsBatch := []
  rhsBatch := []
  wf := dot_S512x64_S2048x64_S512x2048_1_1_0_0_n_n_wf
def dot_S512x2048_S2048x64_S512x64_1_0_0_1_n_n : DotDims S512x2048 S2048x64 S512x64 where
  lhsContracting := [1]
  rhsContracting := [0]
  lhsNonContracting := [0]
  rhsNonContracting := [1]
  lhsBatch := []
  rhsBatch := []
  wf := dot_S512x2048_S2048x64_S512x64_1_0_0_1_n_n_wf

abbrev win0_0 : Pipeline.Window sig grid0 :=
  Pipeline.Window.ofSpec (Memref.whole main_arg0) S1x512x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x2048x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1x2048x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1x512x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S16x2048x64 : Shape := ⟨3, ![16, 2048, 64]⟩
abbrev S_ : Shape := ⟨0, ![]⟩
abbrev S16x2048x2048 : Shape := ⟨3, ![16, 2048, 2048]⟩
abbrev S16x2048 : Shape := ⟨2, ![16, 2048]⟩
abbrev S16x2048x1 : Shape := ⟨3, ![16, 2048, 1]⟩

abbrev nBuf : Space → Nat
  | .hbm => 25
  | .vmem => 0
  | .smem => 0
  | _ => 0

abbrev bufTy : (tb : Table) → Fin (tcTables nBuf tb) → BufTy
  | .hbm, ⟨0, _⟩ => ⟨S16x2048x64, .f32⟩
  | .hbm, ⟨1, _⟩ => ⟨S16x2048x64, .f32⟩
  | .hbm, ⟨2, _⟩ => ⟨S16x2048x64, .f32⟩
  | .hbm, ⟨3, _⟩ => ⟨S_, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S16x2048x2048, .f32⟩
  | .hbm, ⟨8, _⟩ => ⟨S16x2048x2048, .f32⟩
  | .hbm, ⟨9, _⟩ => ⟨S16x2048x2048, .f32⟩
  | .hbm, ⟨10, _⟩ => ⟨S_, .f32⟩
  | .hbm, ⟨11, _⟩ => ⟨S16x2048, .f32⟩
  | .hbm, ⟨12, _⟩ => ⟨S_, .f32⟩
  | .hbm, ⟨13, _⟩ => ⟨S16x2048, .f32⟩
  | .hbm, ⟨14, _⟩ => ⟨S16x2048, .f32⟩
  | .hbm, ⟨15, _⟩ => ⟨S16x2048x1, .f32⟩
  | .hbm, ⟨16, _⟩ => ⟨S16x2048x2048, .f32⟩
  | .hbm, ⟨17, _⟩ => ⟨S16x2048x2048, .f32⟩
  | .hbm, ⟨18, _⟩ => ⟨S16x2048x2048, .f32⟩
  | .hbm, ⟨19, _⟩ => ⟨S_, .f32⟩
  | .hbm, ⟨20, _⟩ => ⟨S16x2048, .f32⟩
  | .hbm, ⟨21, _⟩ => ⟨S16x2048x1, .f32⟩
  | .hbm, ⟨22, _⟩ => ⟨S16x2048x2048, .f32⟩
  | .hbm, ⟨23, _⟩ => ⟨S16x2048x2048, .f32⟩
  | .hbm, ⟨24, _⟩ => ⟨S16x2048x64, .f32⟩
  | _, _ => ⟨S16x2048x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_cst_0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_cst_2 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst_3 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩

abbrev nD : Nat := 1
abbrev τ : Topo := Topo.v7x

variable {F : FTy → Type} [FloatOps F]

class Facts₀ : Prop where
  bcast_S_S16x2048x2048 : S_.BroadcastsInDim S16x2048x2048 (![] : Fin 0 → Fin S16x2048x2048.rank)
  reducesTo_S16x2048x2048_S16x2048_d2 : S16x2048x2048.ReducesTo [2] S16x2048
  h_S_ : 0 < S_.numel
  bcast_S_S16x2048 : S_.BroadcastsInDim S16x2048 (![] : Fin 0 → Fin S16x2048.rank)
  bcast_S16x2048_S16x2048x1_0_1 : S16x2048.BroadcastsInDim S16x2048x1 (![0, 1] : Fin 2 → Fin S16x2048x1.rank)
  bcast_S16x2048x1_S16x2048x2048_0_1_2 : S16x2048x1.BroadcastsInDim S16x2048x2048 (![0, 1, 2] : Fin 3 → Fin S16x2048x2048.rank)
  dot_S16x2048x64_S16x2048x64_S16x2048x2048_2_2_1_1_0_0_wf : DotDims.WF S16x2048x64 S16x2048x64 S16x2048x2048 [2] [2] [1] [1] [0] [0]
  dot_S16x2048x2048_S16x2048x64_S16x2048x64_2_1_1_2_0_0_wf : DotDims.WF S16x2048x2048 S16x2048x64 S16x2048x64 [2] [1] [1] [2] [0] [0]

variable [Facts₀]

def dot_S16x2048x64_S16x2048x64_S16x2048x2048_2_2_1_1_0_0 : DotDims S16x2048x64 S16x2048x64 S16x2048x2048 where
  lhsContracting := [2]
  rhsContracting := [2]
  lhsNonContracting := [1]
  rhsNonContracting := [1]
  lhsBatch := [0]
  rhsBatch := [0]
  wf := dot_S16x2048x64_S16x2048x64_S16x2048x2048_2_2_1_1_0_0_wf
def dot_S16x2048x2048_S16x2048x64_S16x2048x64_2_1_1_2_0_0 : DotDims S16x2048x2048 S16x2048x64 S16x2048x64 where
  lhsContracting := [2]
  rhsContracting := [1]
  lhsNonContracting := [1]
  rhsNonContracting := [2]
  lhsBatch := [0]
  rhsBatch := [0]
  wf := dot_S16x2048x2048_S16x2048x64_S16x2048x64_2_1_1_2_0_0_wf

class Facts : Prop extends Facts₀ where

variable [Facts]
-- ==== Proof.LibFiniteOps.lean ====
/-
  General lemmas about FINITENESS at the ideal instance, where a float is an extended real.

  An array "is real" when every entry is (the coercion of) a real number, that is, neither of the two
  infinities. The extended reals are not a ring: sums and products of infinities follow conventions
  (for instance the sum of the two infinities is the bottom one), so the usual algebraic identities hold only
  where all operands are real. This file shows that the array operations of a host program map real arrays
  to real arrays, so that realness of the inputs can be carried through a program one operation at a time.
  Nothing here mentions a particular program.
-/
import Idealize.ShloMosaic.PureOps.Ideal.Laws
import Idealize.ShloMosaic.PureOps.Contract

noncomputable section

namespace Cert.LibFiniteOps

open Idealize.ShloMosaic
open scoped BigOperators

/-! ### The two predicates -/

/-- Every entry of the array is a real number (not an infinity). -/
def AllReal {s : Shape} (v : s.Idx → EReal) : Prop := ∀ i, ∃ r : ℝ, v i = (r : EReal)

/-- Every entry of the array is a strictly positive real number. -/
def AllPos {s : Shape} (v : s.Idx → EReal) : Prop := ∀ i, ∃ r : ℝ, 0 < r ∧ v i = (r : EReal)

/-- Every entry of the array is a nonzero real number. -/
def AllNonzero {s : Shape} (v : s.Idx → EReal) : Prop := ∀ i, ∃ r : ℝ, r ≠ 0 ∧ v i = (r : EReal)

/-- A positive array is a real array. -/
theorem AllPos.allReal {s : Shape} {v : s.Idx → EReal} (h : AllPos v) : AllReal v :=
  fun i => let ⟨r, _, hr⟩ := h i; ⟨r, hr⟩

/-- A positive array is a nonzero array. -/
theorem AllPos.allNonzero {s : Shape} {v : s.Idx → EReal} (h : AllPos v) : AllNonzero v :=
  fun i => let ⟨r, hpos, hr⟩ := h i; ⟨r, hpos.ne', hr⟩

/-- A nonzero array is a real array. -/
theorem AllNonzero.allReal {s : Shape} {v : s.Idx → EReal} (h : AllNonzero v) : AllReal v :=
  fun i => let ⟨r, _, hr⟩ := h i; ⟨r, hr⟩

/-! ### Finite sums of reals inside the extended reals -/

/-- The coercion from the reals to the extended reals commutes with finite sums:
    the sum of the coercions is the coercion of the real sum. -/
theorem coe_finset_sum {ι : Type} (s : Finset ι) (f : ι → ℝ) :
    ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

/-- A finite sum of extended reals each of which is real is real. -/
theorem exists_real_sum {ι : Type} (s : Finset ι) (g : ι → EReal) (h : ∀ i ∈ s, ∃ r : ℝ, g i = (r : EReal)) :
    ∃ r : ℝ, ∑ i ∈ s, g i = (r : EReal) := by
  classical
  induction s using Finset.induction_on with
  | empty => exact ⟨0, by simp⟩
  | insert a s ha ih =>
    obtain ⟨r, hr⟩ := h a (Finset.mem_insert_self a s)
    obtain ⟨q, hq⟩ := ih (fun i hi => h i (Finset.mem_insert_of_mem hi))
    exact ⟨r + q, by rw [Finset.sum_insert ha, hr, hq, EReal.coe_add]⟩

/-- The sum of two reals is real. -/
theorem real_add {a b : EReal} (ha : ∃ r : ℝ, a = (r : EReal)) (hb : ∃ r : ℝ, b = (r : EReal)) :
    ∃ r : ℝ, a + b = (r : EReal) := by
  obtain ⟨r, rfl⟩ := ha; obtain ⟨q, rfl⟩ := hb; exact ⟨r + q, (EReal.coe_add r q).symm⟩

/-- The difference of two reals is real. -/
theorem real_sub {a b : EReal} (ha : ∃ r : ℝ, a = (r : EReal)) (hb : ∃ r : ℝ, b = (r : EReal)) :
    ∃ r : ℝ, a - b = (r : EReal) := by
  obtain ⟨r, rfl⟩ := ha; obtain ⟨q, rfl⟩ := hb; exact ⟨r - q, (EReal.coe_sub r q).symm⟩

/-- The product of two reals is real. -/
theorem real_mul {a b : EReal} (ha : ∃ r : ℝ, a = (r : EReal)) (hb : ∃ r : ℝ, b = (r : EReal)) :
    ∃ r : ℝ, a * b = (r : EReal) := by
  obtain ⟨r, rfl⟩ := ha; obtain ⟨q, rfl⟩ := hb; exact ⟨r * q, (EReal.coe_mul r q).symm⟩

/-- The negative of a real is real. -/
theorem real_neg {a : EReal} (ha : ∃ r : ℝ, a = (r : EReal)) : ∃ r : ℝ, -a = (r : EReal) := by
  obtain ⟨r, rfl⟩ := ha; exact ⟨-r, (EReal.coe_neg r).symm⟩

/-- The maximum of two reals is real (it is one of the two). -/
theorem real_max {a b : EReal} (ha : ∃ r : ℝ, a = (r : EReal)) (hb : ∃ r : ℝ, b = (r : EReal)) :
    ∃ r : ℝ, max a b = (r : EReal) := by
  rcases le_total a b with h | h
  · rw [max_eq_right h]; exact hb
  · rw [max_eq_left h]; exact ha

/-! ### Literals -/

/-- A splat of a literal whose bit pattern denotes a real number is a real array. -/
theorem allReal_constant {s : Shape} {φ : FTy} {b : BitVec φ.bits} {q : ℝ} (h : Ideal.ofBits φ b = (q : EReal)) :
    AllReal (constant (F := Ideal) s φ b) := fun _ => ⟨q, h⟩

/-- A splat of a literal whose bit pattern denotes a positive real number is a positive array. -/
theorem allPos_constant {s : Shape} {φ : FTy} {b : BitVec φ.bits} {q : ℝ} (hq : 0 < q)
    (h : Ideal.ofBits φ b = (q : EReal)) : AllPos (constant (F := Ideal) s φ b) := fun _ => ⟨q, hq, h⟩

/-- The single-precision pattern of all zero bits denotes the real number zero. -/
theorem ofBits_00000000 : Ideal.ofBits .f32 0x00000000#32 = ((0 : ℝ) : EReal) := by
  simp [Ideal.ofBits, Ideal.ieee]

/-- The single-precision pattern 0x40000000 (exponent field 128, fraction 0) denotes the real number two. -/
theorem ofBits_40000000 : Ideal.ofBits .f32 0x40000000#32 = ((2 : ℝ) : EReal) := by
  simp [Ideal.ofBits, Ideal.ieee, -EReal.coe_mul]; norm_num

/-- The single-precision pattern 0x48800000 (exponent field 145, fraction 0) denotes 2^18 = 262144. -/
theorem ofBits_48800000 : Ideal.ofBits .f32 0x48800000#32 = ((262144 : ℝ) : EReal) := by
  simp [Ideal.ofBits, Ideal.ieee, -EReal.coe_mul]; norm_num

/-- The single-precision pattern 0x3727C5AC (exponent field 110, fraction 2606508) denotes the dyadic
    rational (2^23 + 2606508) / 2^40 = 10995116 / 2^40, the float nearest to one hundred-thousandth. -/
theorem ofBits_3727C5AC : Ideal.ofBits .f32 0x3727C5AC#32 = ((10995116 / 2 ^ 40 : ℝ) : EReal) := by
  simp [Ideal.ofBits, Ideal.ieee, -EReal.coe_mul]; norm_num

/-- The single-precision pattern 0x2B8CBCCC (exponent field 87, fraction 834764) denotes the dyadic
    rational (2^23 + 834764) / 2^63 = 9223372 / 2^63, the float nearest to ten to the minus twelve. -/
theorem ofBits_2B8CBCCC : Ideal.ofBits .f32 0x2B8CBCCC#32 = ((9223372 / 2 ^ 63 : ℝ) : EReal) := by
  simp [Ideal.ofBits, Ideal.ieee, -EReal.coe_mul]; norm_num

theorem pos_3727C5AC : (0 : ℝ) < 10995116 / 2 ^ 40 := by positivity
theorem pos_2B8CBCCC : (0 : ℝ) < 9223372 / 2 ^ 63 := by positivity

/-! ### Re-indexings: every output entry is one of the input's entries -/

/-- Broadcasting along new or size-one axes reads input entries: a real array stays real. -/
theorem allReal_broadcastInDim {s t : Shape} (dims : Fin s.rank → Fin t.rank) (h : s.BroadcastsInDim t dims)
    {x : s.Idx → EReal} (hx : AllReal x) : AllReal (broadcastInDim t dims h x) := fun _ => hx _

/-- Broadcasting a positive array gives a positive array. -/
theorem allPos_broadcastInDim {s t : Shape} (dims : Fin s.rank → Fin t.rank) (h : s.BroadcastsInDim t dims)
    {x : s.Idx → EReal} (hx : AllPos x) : AllPos (broadcastInDim t dims h x) := fun _ => hx _

/-- Broadcasting a nonzero array gives a nonzero array. -/
theorem allNonzero_broadcastInDim {s t : Shape} (dims : Fin s.rank → Fin t.rank) (h : s.BroadcastsInDim t dims)
    {x : s.Idx → EReal} (hx : AllNonzero x) : AllNonzero (broadcastInDim t dims h x) := fun _ => hx _

/-- A transposition permutes the entries. -/
theorem allReal_transpose {s t : Shape} (perm : List (Fin s.rank)) (h : s.Transposes perm t)
    {x : s.Idx → EReal} (hx : AllReal x) : AllReal (transpose t perm x h) := fun _ => hx _

/-- A reshape keeps the entries in row-major order. -/
theorem allReal_shapeCast {s t : Shape} (h : s.ShapeCasts t)
    {x : s.Idx → EReal} (hx : AllReal x) : AllReal (shapeCast t x h) := fun _ => hx _

/-- A slice reads a block of the entries. -/
theorem allReal_extractStridedSlice {s t : Shape} (off : Fin s.rank → Nat) (h : s.Slices off t)
    {x : s.Idx → EReal} (hx : AllReal x) : AllReal (extractStridedSlice t off x h) := fun _ => hx _

/-- A gather reads, at every output index, SOME entry of the operand (the start index read off the index
    array is clamped into range by the definition), so a real operand gives a real result whatever the
    index array holds. -/
theorem allReal_gather {s si t : Shape} {w : Nat} (d : GatherDims s si t) (idx : IVec si w)
    {x : s.Idx → EReal} (hx : AllReal x) : AllReal (Host.gather d x idx) := fun _ => hx _

/-- A gather of a positive operand is positive. -/
theorem allPos_gather {s si t : Shape} {w : Nat} (d : GatherDims s si t) (idx : IVec si w)
    {x : s.Idx → EReal} (hx : AllPos x) : AllPos (Host.gather d x idx) := fun _ => hx _

/-- A lane-by-lane choice between two real arrays is real. -/
theorem allReal_select {s : Shape} (c : IVec s 1) {a b : s.Idx → EReal} (ha : AllReal a) (hb : AllReal b) :
    AllReal (select c a b) := fun i => by
  show ∃ r : ℝ, (if c i = 1 then a i else b i) = (r : EReal)
  split
  · exact ha i
  · exact hb i

/-- A concatenation reads, at every output index, an entry of one of the pieces; if every piece is real, so is
    the result. -/
theorem allReal_concatenate {t : Shape} (a : Fin t.rank) (xs : List ((s : Shape) × (s.Idx → EReal)))
    (h : Shape.Concatenates (xs.map (·.1)) t a) (hx : ∀ p ∈ xs, AllReal p.2) :
    AllReal (concatenate t a xs h) := fun j => by
  unfold concatenate
  exact hx _ (List.getElem_mem _) _

/-! ### Elementwise arithmetic -/

/-- The entrywise sum of real arrays is real. -/
theorem allReal_addf {s : Shape} {φ : FTy} {x y : FVec Ideal s φ} (hx : AllReal x) (hy : AllReal y) :
    AllReal (addf x y) := fun i => real_add (hx i) (hy i)

/-- The entrywise difference of real arrays is real. -/
theorem allReal_subf {s : Shape} {φ : FTy} {x y : FVec Ideal s φ} (hx : AllReal x) (hy : AllReal y) :
    AllReal (subf x y) := fun i => real_sub (hx i) (hy i)

/-- The entrywise product of real arrays is real. -/
theorem allReal_mulf {s : Shape} {φ : FTy} {x y : FVec Ideal s φ} (hx : AllReal x) (hy : AllReal y) :
    AllReal (mulf x y) := fun i => real_mul (hx i) (hy i)

/-- The entrywise negative of a real array is real. -/
theorem allReal_hostNegf {s : Shape} {φ : FTy} {x : FVec Ideal s φ} (hx : AllReal x) :
    AllReal (Host.negf x) := fun i => real_neg (hx i)

/-- The entrywise maximum of real arrays is real. -/
theorem allReal_maximumf {s : Shape} {φ : FTy} {x y : FVec Ideal s φ} (hx : AllReal x) (hy : AllReal y) :
    AllReal (maximumf x y) := fun i => real_max (hx i) (hy i)

/-- The entrywise maximum of a real array and a positive array is positive: it is real, and at least the
    positive entry. -/
theorem allPos_maximumf {s : Shape} {φ : FTy} {x y : FVec Ideal s φ} (hx : AllReal x) (hy : AllPos y) :
    AllPos (maximumf x y) := fun i => by
  obtain ⟨a, ha⟩ := hx i
  obtain ⟨b, hb, hyb⟩ := hy i
  refine ⟨max a b, lt_of_lt_of_le hb (le_max_right a b), ?_⟩
  show max (x i) (y i) = ((max a b : ℝ) : EReal)
  rw [ha, hyb]
  rcases le_total a b with h | h
  · rw [max_eq_right h, max_eq_right (EReal.coe_le_coe_iff.2 h)]
  · rw [max_eq_left h, max_eq_left (EReal.coe_le_coe_iff.2 h)]

/-- The reciprocal square root of a positive real is a positive real. -/
theorem rsqrt_pos {r : ℝ} (hr : 0 < r) :
    Ideal.rsqrt (r : EReal) = (((Real.sqrt r)⁻¹ : ℝ) : EReal) ∧ 0 < (Real.sqrt r)⁻¹ := by
  refine ⟨?_, inv_pos.2 (Real.sqrt_pos.2 hr)⟩
  rw [Ideal.rsqrt_coe, if_neg (not_lt.2 hr.le), if_neg hr.ne']

/-- The entrywise reciprocal square root of a positive array is positive. -/
theorem allPos_hostRsqrt {s : Shape} {φ : FTy} {x : FVec Ideal s φ} (hx : AllPos x) :
    AllPos (Host.rsqrt x) := fun i => by
  obtain ⟨r, hr, hxr⟩ := hx i
  refine ⟨(Real.sqrt r)⁻¹, (rsqrt_pos hr).2, ?_⟩
  show Ideal.rsqrt (x i) = _
  rw [hxr]; exact (rsqrt_pos hr).1

/-- The entrywise reciprocal square root of a positive array is real. -/
theorem allReal_hostRsqrt {s : Shape} {φ : FTy} {x : FVec Ideal s φ} (hx : AllPos x) :
    AllReal (Host.rsqrt x) := (allPos_hostRsqrt hx).allReal

/-- The quotient of a real by a nonzero real is real: division by a nonzero real is multiplication by its
    reciprocal. -/
theorem real_div {a b : EReal} (ha : ∃ r : ℝ, a = (r : EReal)) (hb : ∃ r : ℝ, r ≠ 0 ∧ b = (r : EReal)) :
    ∃ r : ℝ, Ideal.div a b = (r : EReal) := by
  obtain ⟨r, rfl⟩ := ha; obtain ⟨q, hq, rfl⟩ := hb
  exact ⟨r * (1 / q), by rw [Ideal.div_coe hq, EReal.coe_mul]⟩

/-- The entrywise quotient of a real array by a nonzero array (for instance a broadcast nonzero literal) is
    real. -/
theorem allReal_hostDivf {s : Shape} {φ : FTy} {x y : FVec Ideal s φ} (hx : AllReal x) (hy : AllNonzero y) :
    AllReal (Host.divf x y) := fun i => real_div (hx i) (hy i)

/-- The entrywise quotient of a real array by a nonzero array, kernel-side spelling. -/
theorem allReal_divf {s : Shape} {φ : FTy} {x y : FVec Ideal s φ} (hx : AllReal x) (hy : AllNonzero y) :
    AllReal (divf x y) := fun i => real_div (hx i) (hy i)

/-- An integer converted to a float is real. -/
theorem allReal_sitofp {s : Shape} {w : Nat} (φ : FTy) (x : IVec s w) : AllReal (sitofp (F := Ideal) φ x) :=
  fun i => ⟨((x i).toInt : ℝ), rfl⟩

/-! ### Sums: scatter-add, contractions, reductions -/

/-- An accumulating scatter gives, at each index, the operand's entry plus a finite sum of update entries;
    with real operand and real updates the result is real. -/
theorem allReal_scatterAdd {s si u : Shape} {w : Nat} {φ : FTy} (d : ScatterDims s si u) (idx : IVec si w)
    {x : FVec Ideal s φ} {upd : FVec Ideal u φ} (hx : AllReal x) (hu : AllReal upd) :
    AllReal (Host.scatterAdd d x idx upd) := fun i => by
  show ∃ r : ℝ, x i + ∑ j ∈ Finset.univ.filter (fun j => d.resultIdx? j idx = some i), upd j = (r : EReal)
  exact real_add (hx i) (exists_real_sum _ _ (fun j _ => hu j))

/-- A contraction is, at each output index, a finite sum of products of one entry of each operand; with real
    operands and a real accumulator the result is real. -/
theorem allReal_matmul {sl sr so : Shape} {φ₁ φ₂ : FTy} (d : DotDims sl sr so) (prec : Option ContractPrecision)
    {l : FVec Ideal sl φ₁} {r : FVec Ideal sr φ₂} {acc : FVec Ideal so .f32}
    (hl : AllReal l) (hr : AllReal r) (hacc : AllReal acc) : AllReal (matmul d prec l r acc) := fun j => by
  show ∃ q : ℝ, acc j + ∑ k : d.contr.Idx, l (d.lhsIdx j k) * r (d.rhsIdx j k) = (q : EReal)
  exact real_add (hacc j) (exists_real_sum _ _ (fun k _ => real_mul (hl _) (hr _)))

/-- A contraction onto the zero accumulator (the splat of the zero literal) of real operands is real. -/
theorem allReal_matmul_zero {sl sr so : Shape} {φ₁ φ₂ : FTy} (d : DotDims sl sr so) (prec : Option ContractPrecision)
    {l : FVec Ideal sl φ₁} {r : FVec Ideal sr φ₂} (hl : AllReal l) (hr : AllReal r) :
    AllReal (matmul d prec l r (constant so .f32 0x00000000#32)) :=
  allReal_matmul d prec hl hr (allReal_constant ofBits_00000000)

/-- The host's contraction (onto zero) of real operands is real. -/
theorem allReal_dotGeneral {sl sr so : Shape} {φ₁ φ₂ : FTy} (d : DotDims sl sr so) (prec : Option ContractPrecision)
    {l : FVec Ideal sl φ₁} {r : FVec Ideal sr φ₂} (hl : AllReal l) (hr : AllReal r) :
    AllReal (Host.dotGeneral d prec l r) := fun j => by
  show ∃ q : ℝ, (0 : EReal) + ∑ k : d.contr.Idx, l (d.lhsIdx j k) * r (d.rhsIdx j k) = (q : EReal)
  exact real_add ⟨0, rfl⟩ (exists_real_sum _ _ (fun k _ => real_mul (hl _) (hr _)))

/-- The host's sum along axes, from a real initial value, of a real array is real. -/
theorem allReal_reduceAdd {s t u : Shape} {φ : FTy} {axes : List (Fin s.rank)} (h : s.ReducesTo axes t)
    (hu : 0 < u.numel) {x : FVec Ideal s φ} {init : u.Idx → Ideal φ} (hx : AllReal x) (hinit : AllReal init) :
    AllReal (Host.reduceAdd x init h hu) := fun j => by
  show ∃ q : ℝ, init (Shape.Idx.first hu) + ∑ i ∈ Finset.univ.filter (fun i => h.drop i = j), x i = (q : EReal)
  exact real_add (hinit _) (exists_real_sum _ _ (fun i _ => hx i))

/-- A kernel's sum along axes of a real array is real. -/
theorem allReal_multiReduction_add {s t : Shape} {φ : FTy} (axes : List (Fin s.rank)) {src : FVec Ideal s φ}
    (acc : BitVec φ.bits) (h : s.Reduces axes t) (hφ : FKind.Formats φ) (hacc : acc = FKind.neutral .add φ hφ)
    (hx : AllReal src) : AllReal (multiReduction .add axes t src acc h hφ hacc) := fun j => by
  show ∃ q : ℝ, ∑ i ∈ Finset.univ.filter (fun i => h.drop i = j), src i = (q : EReal)
  exact exists_real_sum _ _ (fun i _ => hx i)

/-! ### The finiteness test: an absolute value strictly below plus infinity -/

/-- The single-precision pattern 0x7F800000 denotes plus infinity. -/
theorem ofBits_7F800000 : Ideal.ofBits .f32 0x7F800000#32 = (⊤ : EReal) := by
  simp [Ideal.ofBits, Ideal.ieee]

/-- An extended real whose absolute value (the maximum of it and its negative) compares strictly below plus
    infinity is a real number: at either infinity the absolute value IS plus infinity. -/
theorem real_of_abs_lt_top {φ : FTy} (a : Ideal φ)
    (h : FloatOps.cmpf .olt (FloatOps.hostAbsf a) ((⊤ : EReal) : Ideal φ) = 1#1) : ∃ r : ℝ, a = (r : EReal) := by
  have h' : BitVec.ofBool (decide (max (a : EReal) (-a) < ⊤)) = 1#1 := h
  induction a using EReal.rec with
  | bot => simp at h'
  | top => simp at h'
  | coe r => exact ⟨r, rfl⟩

/-- The array form: if every entry of |x| compares strictly below an array whose entries are all plus
    infinity, then x is a real array. -/
theorem allReal_of_abs_lt_top {s : Shape} {φ : FTy} {x inf : FVec Ideal s φ} (hinf : ∀ i, inf i = (⊤ : EReal))
    (h : ∀ i, cmpf .olt (Host.absf x) inf i = 1#1) : AllReal x := fun i => by
  have hi : FloatOps.cmpf .olt (FloatOps.hostAbsf (x i)) (inf i) = 1#1 := h i
  rw [hinf i] at hi
  exact real_of_abs_lt_top (x i) hi

end Cert.LibFiniteOps

end
-- ==== Proof.AttnSpec.lean ====
/-
  Scaled dot-product attention with a full (two-pass) softmax, as one function of the three argument arrays.

  For a batch b, a query row q and an output column d,

      G Q K V (b, q, d) = Σ_k  w(b, q, k) · V(b, k, d),
      w(b, q, k) = exp(s(b,q,k) − M(b,q)) / Σ_k' exp(s(b,q,k') − M(b,q)),
      M(b, q) = max_k s(b, q, k)   (a fold of max from minus infinity),
      s(b, q, k) = Σ_d' (Q(b,q,d') · c) · K(b,k,d'),   c = 1/8.

  Everything after the scores is the same expression whichever way the scores are computed, so it is kept as one
  function `softmaxDot` of a row of scores and a column of values. The only algebra is in the scores: scaling
  each query entry by c before the contraction, or scaling the contraction by c afterwards, agree when the entries
  are real numbers (on the extended reals a product does not distribute over a sum that mixes the two infinities),
  and 1 / sqrt 64 is the same real number as the single-precision literal 0.125.
-/
import Idealize.ShloMosaic.PureOps.Ideal
import Idealize.ShloMosaic.PureOps.Ideal.Laws
import Idealize.ShloMosaic.Lib.ValueIdx
import proofs.«135618_j57827439673579_2_alg».proof.Proof.LibFiniteOps

noncomputable section

namespace Cert.Attn

open Idealize.ShloMosaic Idealize.ShloMosaic.ValueIdx Cert.LibFiniteOps

/-- The softmax of a row of scores `s` (maximum folded from `bot`) contracted with a column of values `v`. -/
def softmaxDot {n : ℕ} (bot : EReal) (s v : Fin n → EReal) : EReal :=
  ∑ k : Fin n, Ideal.div (Ideal.exp (s k - (Finset.univ : Finset (Fin n)).fold max bot s))
      (∑ k' : Fin n, Ideal.exp (s k' - (Finset.univ : Finset (Fin n)).fold max bot s)) * v k

/-- The shape of each of the three arguments and of the result. -/
abbrev SArg : Shape := ⟨3, ![16, 2048, 64]⟩

/-- The scale, as the kernel spells it: the single-precision literal 0.125. -/
abbrev scaleLit : EReal := Ideal.ofBits .f32 0x3E000000#32

/-- The value the row maxima are folded from: the single-precision pattern of minus infinity. -/
abbrev botLit : EReal := Ideal.ofBits .f32 0xFF800000#32

/-- The score of query row `q` against key row `k` in batch `b`, the scale applied to the query entries. -/
def score (Q K : SArg.Idx → EReal) (b : Fin 16) (q k : Fin 2048) : EReal :=
  ∑ d : Fin 64, (Q (ix3 b q d) * scaleLit) * K (ix3 b k d)

/-- Attention at batch `b`, query row `q`, output column `d`. -/
def attn (Q K V : SArg.Idx → EReal) (b : Fin 16) (q : Fin 2048) (d : Fin 64) : EReal :=
  softmaxDot botLit (fun k => score Q K b q k) (fun k => V (ix3 b k d))

/-- The whole result array. -/
def G (Q K V : SArg.Idx → EReal) : SArg.Idx → EReal := fun i => attn Q K V (i 0) (i 1) (i 2)

theorem G_ix3 (Q K V : SArg.Idx → EReal) (b : Fin 16) (q : Fin 2048) (d : Fin 64) :
    G Q K V (ix3 b q d) = attn Q K V b q d := rfl

/-! ## The scale -/

/-- The literal 0.125 denotes the real number 1/8. -/
theorem scaleLit_eq : scaleLit = ((1 / 8 : ℝ) : EReal) := by
  simp [scaleLit, Ideal.ofBits, Ideal.ieee, -EReal.coe_mul]; norm_num

/-- The literal 1.0 denotes the real number 1. -/
theorem ofBits_one : Ideal.ofBits .f32 0x3F800000#32 = ((1 : ℝ) : EReal) := by
  simp [Ideal.ofBits, Ideal.ieee, -EReal.coe_mul]; norm_num

/-- The literal 64.0 denotes the real number 64. -/
theorem ofBits_64 : Ideal.ofBits .f32 0x42800000#32 = ((64 : ℝ) : EReal) := by
  simp [Ideal.ofBits, Ideal.ieee, -EReal.coe_mul]; norm_num

/-- One over the square root of sixty-four, computed on the extended reals, is the literal 0.125: the root is 8. -/
theorem inv_sqrt_64 :
    Ideal.div (Ideal.ofBits .f32 0x3F800000#32) (Ideal.sqrt (Ideal.ofBits .f32 0x42800000#32)) = scaleLit := by
  have h8 : Real.sqrt 64 = 8 := by
    rw [show (64 : ℝ) = 8 ^ 2 by norm_num]; exact Real.sqrt_sq (by norm_num)
  rw [ofBits_one, ofBits_64, Ideal.sqrt_coe, if_neg (by norm_num), h8, Ideal.div_coe (by norm_num : (8 : ℝ) ≠ 0),
    scaleLit_eq, ← EReal.coe_mul, one_mul]

/-- A contraction of real entries scaled afterwards is the contraction of the entries scaled beforehand. -/
theorem scale_sum {n : ℕ} (x y : Fin n → EReal) (c : EReal) (hx : ∀ d, ∃ r : ℝ, x d = (r : EReal))
    (hy : ∀ d, ∃ r : ℝ, y d = (r : EReal)) (hc : ∃ r : ℝ, c = (r : EReal)) :
    (∑ d, x d * y d) * c = ∑ d, (x d * c) * y d := by
  choose xr hxr using hx
  choose yr hyr using hy
  obtain ⟨cr, rfl⟩ := hc
  simp only [hxr, hyr, ← EReal.coe_mul]
  rw [coe_finset_sum, coe_finset_sum, ← EReal.coe_mul, Finset.sum_mul]
  exact congrArg _ (Finset.sum_congr rfl fun d _ => by ring)

/-- So, on real arrays, the contraction of a query row with a key row scaled by 1 / sqrt 64 is the score. -/
theorem score_eq (Q K : SArg.Idx → EReal) (hQ : AllReal Q) (hK : AllReal K) (b : Fin 16) (q k : Fin 2048) :
    (∑ d : Fin 64, Q (ix3 b q d) * K (ix3 b k d))
        * Ideal.div (Ideal.ofBits .f32 0x3F800000#32) (Ideal.sqrt (Ideal.ofBits .f32 0x42800000#32))
      = score Q K b q k := by
  rw [inv_sqrt_64]
  exact scale_sum (fun d => Q (ix3 b q d)) (fun d => K (ix3 b k d)) scaleLit (fun d => hQ _) (fun d => hK _)
    ⟨1 / 8, scaleLit_eq⟩

end Cert.Attn

end
-- ==== Proof.LibDotSum.lean ====
/-
  A matrix product with ONE contracted axis, read at an index as a plain sum over that axis: for the host's
  product and for the matrix unit's product into a zero accumulator, both on the extended reals. The caller names the
  two operands' indices at contraction position k; the lemma re-indexes the sum by the axis's one coordinate.
-/
import Idealize.ShloMosaic.Lib.ValueIdx
import Idealize.ShloMosaic.Lib.KernelVsHost
import Idealize.ShloMosaic.PureOps.Ideal.Laws

namespace Idealize.ShloMosaic.DotSum

open Idealize.ShloMosaic Idealize.ShloMosaic.ValueIdx

/-- The host's product at an output index is the sum over the contracted axis of the operands' products, each read
    where the dimension numbers put it. -/
theorem dotGeneral_eq_sum {sl sr so : Shape} {φ₁ φ₂ : FTy} (d : DotDims sl sr so) (K : Nat) (hr : d.contr.rank = 1)
    (hs : d.contr.size ⟨0, by omega⟩ = K) (x : FVec Ideal sl φ₁) (w : FVec Ideal sr φ₂) (j : so.Idx)
    (li : Fin K → sl.Idx) (ri : Fin K → sr.Idx)
    (hl : ∀ k, d.lhsIdx j ((contrEquiv1 d K hr hs).symm k) = li k)
    (hw : ∀ k, d.rhsIdx j ((contrEquiv1 d K hr hs).symm k) = ri k) :
    Host.dotGeneral d none x w j = ∑ k : Fin K, x (li k) * w (ri k) := by
  show FloatOps.dotGeneral d none _ x w j = _
  rw [Ideal.dotGeneral_apply, ← Equiv.sum_comp (contrEquiv1 d K hr hs).symm]
  exact Finset.sum_congr rfl fun k _ => by rw [hl k, hw k]

/-- The matrix unit's product into a zero accumulator likewise (its operands may be of a narrower format: on the
    extended reals a format is no restriction). -/
theorem matmul_zero_eq_sum {sl sr so : Shape} {φ₁ φ₂ : FTy} (d : DotDims sl sr so) (K : Nat) (hr : d.contr.rank = 1)
    (hs : d.contr.size ⟨0, by omega⟩ = K) (x : FVec Ideal sl φ₁) (w : FVec Ideal sr φ₂) (j : so.Idx)
    (li : Fin K → sl.Idx) (ri : Fin K → sr.Idx)
    (hl : ∀ k, d.lhsIdx j ((contrEquiv1 d K hr hs).symm k) = li k)
    (hw : ∀ k, d.rhsIdx j ((contrEquiv1 d K hr hs).symm k) = ri k) :
    matmul d none x w (constant so .f32 0x00000000#32) j = ∑ k : Fin K, x (li k) * w (ri k) := by
  rw [matmul_zero_eq_dotGeneral]
  exact dotGeneral_eq_sum d K hr hs x w j li ri hl hw

end Idealize.ShloMosaic.DotSum
-- ==== Proof.LibRowOps.lean ====
/-
  Layout operations on arrays of rows, read at an index.

  A row-wise sum, the column-vector forms of a reshape and of a broadcast, the two pieces of a
  concatenation along the last axis, and the plain matrix product into a zero accumulator — each read at
  `(r, c)` as the operand's elements it depends on.
-/
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value
import Idealize.ShloMosaic.Lib.StackMember

noncomputable section

namespace Cert.Lib.RowOps

open Idealize.ShloMosaic Idealize.ShloMosaic.ValueIdx

variable {α : Type}

/-- A length-`a` vector reshaped to a column `[a, 1]` reads, at `(r, 0)`, the vector at `r`. -/
theorem shapeCast_a_a1_apply {a : ℕ} (x : (⟨1, ![a]⟩ : Shape).Idx → α) (h : (⟨1, ![a]⟩ : Shape).ShapeCasts ⟨2, ![a, 1]⟩)
    (r : Fin a) (u : Fin 1) : shapeCast ⟨2, ![a, 1]⟩ x h (ix2 r u) = x (ix1 r) :=
  shapeCast_apply x h _ _ (by
    have hu : u.val = 0 := by omega
    rw [Shape.rowMajor_val_two, Shape.rowMajor_val_one]
    show r.val = r.val * 1 + u.val
    omega)

/-- A column `[a, 1]` broadcast to `[a, b]` reads, at `(r, c)`, the column at `r`. -/
theorem broadcastTo_a1_ab_apply {a b : ℕ} (v : (⟨2, ![a, 1]⟩ : Shape).Idx → α) (h : (⟨2, ![a, 1]⟩ : Shape).Broadcasts ⟨2, ![a, b]⟩)
    (r : Fin a) (c : Fin b) : broadcastTo ⟨2, ![a, b]⟩ v h (ix2 r c) = v (ix2 r (0 : Fin 1)) := by
  refine broadcastTo_apply v h (ix2 r c) (ix2 r (0 : Fin 1)) fun ax => ?_
  match ax with
  | ⟨0, _⟩ =>
    show r.val = if a = 1 then 0 else r.val
    split
    · have := r.isLt; omega
    · rfl
  | ⟨1, _⟩ => rfl

/-- Two arrays joined along the last axis: a column below the first extent is the first array's. -/
theorem concat_cols_left {a b₁ b₂ : ℕ} (x₁ : (⟨2, ![a, b₁]⟩ : Shape).Idx → α) (x₂ : (⟨2, ![a, b₂]⟩ : Shape).Idx → α)
    (h : Shape.Concatenates [⟨2, ![a, b₁]⟩, ⟨2, ![a, b₂]⟩] ⟨2, ![a, b₁ + b₂]⟩ 1) (r : Fin a) (c : Fin (b₁ + b₂)) (hc : c.val < b₁) :
    concatenate ⟨2, ![a, b₁ + b₂]⟩ 1 [⟨⟨2, ![a, b₁]⟩, x₁⟩, ⟨⟨2, ![a, b₂]⟩, x₂⟩] h (ix2 r c) = x₁ (ix2 r ⟨c.val, hc⟩) :=
  concatenate_pair_apply_left 1 x₁ x₂ h (ix2 r c) rfl (ix2 r ⟨c.val, hc⟩) (fun b => by
    match b with
    | ⟨0, _⟩ => rfl
    | ⟨1, _⟩ => rfl)

/-- … and a column from the first extent on is the second array's, the first extent less. -/
theorem concat_cols_right {a b₁ b₂ : ℕ} (x₁ : (⟨2, ![a, b₁]⟩ : Shape).Idx → α) (x₂ : (⟨2, ![a, b₂]⟩ : Shape).Idx → α)
    (h : Shape.Concatenates [⟨2, ![a, b₁]⟩, ⟨2, ![a, b₂]⟩] ⟨2, ![a, b₁ + b₂]⟩ 1) (r : Fin a) (c : Fin (b₁ + b₂)) (c' : Fin b₂)
    (hc : c'.val + b₁ = c.val) :
    concatenate ⟨2, ![a, b₁ + b₂]⟩ 1 [⟨⟨2, ![a, b₁]⟩, x₁⟩, ⟨⟨2, ![a, b₂]⟩, x₂⟩] h (ix2 r c) = x₂ (ix2 r c') :=
  concatenate_pair_apply_right 1 x₁ x₂ h (ix2 r c) rfl rfl (ix2 r c') (fun b hb => by
    match b with
    | ⟨0, _⟩ => rfl
    | ⟨1, _⟩ => exact absurd rfl hb) hc

/-- A length-`b` vector broadcast to a one-row array `[1, b]` along its second axis reads, at `(u, c)`, the vector at `c`. -/
theorem bcastInDim_b_1b {b : ℕ} (x : (⟨1, ![b]⟩ : Shape).Idx → α) (h : (⟨1, ![b]⟩ : Shape).BroadcastsInDim ⟨2, ![1, b]⟩ ![1])
    (u : Fin 1) (c : Fin b) : broadcastInDim ⟨2, ![1, b]⟩ ![1] h x (ix2 u c) = x (ix1 c) := by
  refine broadcastInDim_apply _ h x (ix2 u c) (ix1 c) fun ax => ?_
  match ax with
  | ⟨0, _⟩ =>
    show c.val = if b = 1 then 0 else c.val
    split
    · have := c.isLt; omega
    · rfl

/-- A one-row array `[1, b]` broadcast to `[a, b]` axis by axis reads, at `(p, c)`, the row at `c`. -/
theorem bcastInDim_1b_ab {a b : ℕ} (x : (⟨2, ![1, b]⟩ : Shape).Idx → α) (h : (⟨2, ![1, b]⟩ : Shape).BroadcastsInDim ⟨2, ![a, b]⟩ ![0, 1])
    (p : Fin a) (c : Fin b) : broadcastInDim ⟨2, ![a, b]⟩ ![0, 1] h x (ix2 p c) = x (ix2 (0 : Fin 1) c) := by
  refine broadcastInDim_apply _ h x (ix2 p c) (ix2 (0 : Fin 1) c) fun ax => ?_
  match ax with
  | ⟨0, _⟩ => rfl
  | ⟨1, _⟩ =>
    show c.val = if b = 1 then 0 else c.val
    split
    · have := c.isLt; omega
    · rfl

/-- A column `[a, 1]` broadcast to `[a, b]` axis by axis reads, at `(p, c)`, the column at `p`. -/
theorem bcastInDim_a1_ab {a b : ℕ} (x : (⟨2, ![a, 1]⟩ : Shape).Idx → α) (h : (⟨2, ![a, 1]⟩ : Shape).BroadcastsInDim ⟨2, ![a, b]⟩ ![0, 1])
    (p : Fin a) (c : Fin b) : broadcastInDim ⟨2, ![a, b]⟩ ![0, 1] h x (ix2 p c) = x (ix2 p (0 : Fin 1)) := by
  refine broadcastInDim_apply _ h x (ix2 p c) (ix2 p (0 : Fin 1)) fun ax => ?_
  match ax with
  | ⟨0, _⟩ =>
    show p.val = if a = 1 then 0 else p.val
    split
    · have := p.isLt; omega
    · rfl
  | ⟨1, _⟩ => rfl

/-- A length-`a` vector broadcast to a column `[a, 1]` along its first axis reads, at `(p, u)`, the vector at `p`. -/
theorem bcastInDim_a_a1 {a : ℕ} (x : (⟨1, ![a]⟩ : Shape).Idx → α) (h : (⟨1, ![a]⟩ : Shape).BroadcastsInDim ⟨2, ![a, 1]⟩ ![0])
    (p : Fin a) (u : Fin 1) : broadcastInDim ⟨2, ![a, 1]⟩ ![0] h x (ix2 p u) = x (ix1 p) := by
  refine broadcastInDim_apply _ h x (ix2 p u) (ix1 p) fun ax => ?_
  match ax with
  | ⟨0, _⟩ =>
    show p.val = if a = 1 then 0 else p.val
    split
    · have := p.isLt; omega
    · rfl

/-- A scalar broadcast to any shape reads the scalar everywhere. -/
theorem bcastInDim_scalar {t : Shape} (x : (⟨0, ![]⟩ : Shape).Idx → α) (h : (⟨0, ![]⟩ : Shape).BroadcastsInDim t ![]) (i : t.Idx) :
    broadcastInDim t ![] h x i = x ix0 :=
  broadcastInDim_apply _ h x i ix0 fun ax => ax.elim0

/-- A sum over the last axis of an `[a, b]` array of extended reals, read at `r`: the row's sum. -/
theorem rowSum_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ) (r : Fin a) :
    multiReduction .add [1] ⟨1, ![a]⟩ src acc h hφ hacc (ix1 r) = ∑ k : Fin b, src (ix2 r k) := by
  refine (Ideal.multiReduction_add_single src acc h hφ hacc (ix1 r)).trans ?_
  refine Finset.sum_congr rfl fun k _ => congrArg src (funext fun ax => Fin.ext ?_)
  match ax with
  | ⟨0, _⟩ => rfl
  | ⟨1, _⟩ => rfl

/-- The same for a single-precision array whose printed accumulator is the zero pattern, the proof argument typed as printed. -/
theorem rowSum_f32_apply {a b : ℕ} (src : FVec Ideal ⟨2, ![a, b]⟩ .f32)
    (h : (⟨2, ![a, b]⟩ : Shape).Reduces [1] ⟨1, ![a]⟩) (hφ : FKind.Formats .f32) (hacc : (0x00000000#32 : BitVec 32) = 0x00000000#32) (r : Fin a) :
    multiReduction .add [1] ⟨1, ![a]⟩ src 0x00000000#32 h hφ hacc (ix1 r) = ∑ k : Fin b, src (ix2 r k) :=
  rowSum_apply src _ h hφ hacc r

/-- The plain product of an `m×k` by a `k×n` matrix accumulated into zeros, read at `(a, b)` on the extended reals. -/
theorem matmul_plain_zero_apply {m k n : ℕ} {φ₁ φ₂ : FTy} (prec : Option ContractPrecision)
    (A : FVec Ideal ⟨2, ![m, k]⟩ φ₁) (B : FVec Ideal ⟨2, ![k, n]⟩ φ₂) (a : Fin m) (b : Fin n) :
    matmul (DotDims.plain m k n) prec A B (constant ⟨2, ![m, n]⟩ .f32 0x00000000#32) (ix2 a b)
      = ∑ c : Fin k, A (ix2 a c) * B (ix2 c b) := by
  have e : matmul (DotDims.plain m k n) prec A B (constant ⟨2, ![m, n]⟩ .f32 0x00000000#32) (ix2 a b)
      = Host.dotGeneral (DotDims.plain m k n) prec A B (ix2 a b) := by
    show FloatOps.matmul _ prec A B _ (ix2 a b) = FloatOps.dotGeneral _ prec _ A B (ix2 a b)
    rw [Ideal.matmul_constant_zero_apply, Ideal.dotGeneral_apply]
  rw [e]
  exact StackMember.dotGeneral_plain_apply prec A B a b

end Cert.Lib.RowOps

end
-- ==== Proof.LibRowMax.lean ====
/-
  The maximum along the last axis of an array of extended reals, read at an index: the fold of `max` over the
  entries along that axis, started from the value the initial pattern denotes. Stated for the kernel-side
  reduction of an [a, b] array to [a] and for the host-side reduction of an [a, b, c] array to [a, b]; both are
  folds over the same finite set of positions, so a row maximum taken on a tile and the one taken on the whole
  array meet in one expression.
-/
import Idealize.ShloMosaic.PureOps.Ideal.Laws
import Idealize.ShloMosaic.Lib.ValueIdx

noncomputable section

namespace Cert.Lib.RowMax

open Idealize.ShloMosaic Idealize.ShloMosaic.ValueIdx

/-- A maximum over the last axis of an `[a, b]` array, read at `r`: the fold of `max` over row `r`. -/
theorem rowMax_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.maximumf.neutral φ hφ) (r : Fin a) :
    multiReduction .maximumf [1] ⟨1, ![a]⟩ src acc h hφ hacc (ix1 r)
      = (Finset.univ : Finset (Fin b)).fold max (Ideal.ofBits φ acc) (fun k => src (ix2 r k)) := by
  refine (Ideal.multiReduction_maximumf_single src acc h hφ hacc (ix1 r)).trans ?_
  exact congrArg (fun f : Fin b → EReal => (Finset.univ : Finset (Fin b)).fold max (Ideal.ofBits φ acc) f)
    (funext fun k => congrArg src (funext fun ax => Fin.ext (by
      match ax with
      | ⟨0, _⟩ => rfl
      | ⟨1, _⟩ => rfl)))

/-- The same for a single-precision array whose printed initial pattern is minus infinity's, the proof argument
    typed as printed. -/
theorem rowMax_f32_apply {a b : ℕ} (src : FVec Ideal ⟨2, ![a, b]⟩ .f32)
    (h : (⟨2, ![a, b]⟩ : Shape).Reduces [1] ⟨1, ![a]⟩) (hφ : FKind.Formats .f32)
    (hacc : (0xFF800000#32 : BitVec 32) = 0xFF800000#32) (r : Fin a) :
    multiReduction .maximumf [1] ⟨1, ![a]⟩ src 0xFF800000#32 h hφ hacc (ix1 r)
      = (Finset.univ : Finset (Fin b)).fold max (Ideal.ofBits .f32 0xFF800000#32) (fun k => src (ix2 r k)) :=
  rowMax_apply src _ h hφ hacc r

/-- The host's reduction by `max` over the last axis of an `[a, b, c]` array from a scalar initial value, read at
    `(p, q)`: the fold of `max` over the entries `(p, q, ·)`. -/
theorem hostRowMax3_apply {a b c : ℕ} {φ : FTy} (x : FVec Ideal ⟨3, ![a, b, c]⟩ φ) (init : (⟨0, ![]⟩ : Shape).Idx → Ideal φ)
    (h' : (⟨3, ![a, b, c]⟩ : Shape).ReducesTo [2] ⟨2, ![a, b]⟩) (h : (⟨3, ![a, b, c]⟩ : Shape).Reduces [2] ⟨2, ![a, b]⟩)
    (hu : 0 < (⟨0, ![]⟩ : Shape).numel) (p : Fin a) (q : Fin b) :
    Host.reduce FloatOps.maximumf x init h' hu (ix2 p q)
      = (Finset.univ : Finset (Fin c)).fold max (init ix0) (fun k => x (ix3 p q k)) := by
  refine (Host.reduce_eq_fold_single FloatOps.maximumf x init h' h hu (ix2 p q)).trans ?_
  have e0 : init (Shape.Idx.first hu) = init ix0 := congrArg init (funext fun ax => ax.elim0)
  rw [e0]
  exact congrArg (fun f : Fin c → EReal => (Finset.univ : Finset (Fin c)).fold max (init ix0) f)
    (funext fun k => congrArg x (funext fun ax => Fin.ext (by
      match ax with
      | ⟨0, _⟩ => rfl
      | ⟨1, _⟩ => rfl
      | ⟨2, _⟩ => rfl)))

/-- A fold of `max` started from `b` is at least `b`, so taking the maximum with `b` once more changes nothing. -/
theorem max_fold_self {n : ℕ} (b : EReal) (s : Fin n → EReal) :
    max b ((Finset.univ : Finset (Fin n)).fold max b s) = (Finset.univ : Finset (Fin n)).fold max b s :=
  max_eq_right ((Finset.le_fold_max b).2 (Or.inl le_rfl))

end Cert.Lib.RowMax

end
-- ==== Proof.LibSoftmaxRows.lean ====
/-
  A row softmax of an [a, b] array of extended reals in its usual five steps — row maximum, subtraction, exponential,
  row sum, division — with the row statistics laid out as a column [a, 1] and repeated along each row, read at an
  index (r, k): the exponential of the entry less the row's maximum, over the sum of those exponentials along the row.
-/
import Idealize.ShloMosaic.PureOps.Ideal.Laws
import Idealize.ShloMosaic.Lib.ValueIdx
import proofs.«135618_j57827439673579_2_alg».proof.Proof.LibRowOps
import proofs.«135618_j57827439673579_2_alg».proof.Proof.LibRowMax

noncomputable section

namespace Cert.Lib.SoftmaxRows

open Idealize.ShloMosaic Idealize.ShloMosaic.ValueIdx Cert.Lib.RowOps Cert.Lib.RowMax

/-- A vector of row statistics laid out as a column and repeated along each row reads, at `(r, c)`, the statistic of row `r`. -/
theorem keepdims_apply {α : Type} {a b : ℕ} (v : (⟨1, ![a]⟩ : Shape).Idx → α) (hc : (⟨1, ![a]⟩ : Shape).ShapeCasts ⟨2, ![a, 1]⟩)
    (hb : (⟨2, ![a, 1]⟩ : Shape).Broadcasts ⟨2, ![a, b]⟩) (r : Fin a) (c : Fin b) :
    broadcastTo ⟨2, ![a, b]⟩ (shapeCast ⟨2, ![a, 1]⟩ v hc) hb (ix2 r c) = v (ix1 r) :=
  (broadcastTo_a1_ab_apply _ hb r c).trans (shapeCast_a_a1_apply v hc r 0)

/-- The five-step row softmax read at `(r, k)`. -/
theorem softmax_rows_apply {a b : ℕ} (s : FVec Ideal ⟨2, ![a, b]⟩ .f32)
    (hr : (⟨2, ![a, b]⟩ : Shape).Reduces [1] ⟨1, ![a]⟩) (hφ : FKind.Formats .f32)
    (hmax : (0xFF800000#32 : BitVec 32) = 0xFF800000#32) (hadd : (0x00000000#32 : BitVec 32) = 0x00000000#32)
    (hc : (⟨1, ![a]⟩ : Shape).ShapeCasts ⟨2, ![a, 1]⟩) (hb : (⟨2, ![a, 1]⟩ : Shape).Broadcasts ⟨2, ![a, b]⟩)
    (r : Fin a) (k : Fin b) :
    divf
        (exp (subf s (broadcastTo ⟨2, ![a, b]⟩ (shapeCast ⟨2, ![a, 1]⟩
          (multiReduction .maximumf [1] ⟨1, ![a]⟩ s 0xFF800000#32 hr hφ hmax) hc) hb)))
        (broadcastTo ⟨2, ![a, b]⟩ (shapeCast ⟨2, ![a, 1]⟩
          (multiReduction .add [1] ⟨1, ![a]⟩
            (exp (subf s (broadcastTo ⟨2, ![a, b]⟩ (shapeCast ⟨2, ![a, 1]⟩
              (multiReduction .maximumf [1] ⟨1, ![a]⟩ s 0xFF800000#32 hr hφ hmax) hc) hb)))
            0x00000000#32 hr hφ hadd) hc) hb)
        (ix2 r k)
      = Ideal.div
          (Ideal.exp (s (ix2 r k) - (Finset.univ : Finset (Fin b)).fold max (Ideal.ofBits .f32 0xFF800000#32) (fun k' => s (ix2 r k'))))
          (∑ k' : Fin b, Ideal.exp (s (ix2 r k')
            - (Finset.univ : Finset (Fin b)).fold max (Ideal.ofBits .f32 0xFF800000#32) (fun k'' => s (ix2 r k'')))) := by
  have hM : ∀ k' : Fin b,
      broadcastTo ⟨2, ![a, b]⟩ (shapeCast ⟨2, ![a, 1]⟩
          (multiReduction .maximumf [1] ⟨1, ![a]⟩ s 0xFF800000#32 hr hφ hmax) hc) hb (ix2 r k')
        = (Finset.univ : Finset (Fin b)).fold max (Ideal.ofBits .f32 0xFF800000#32) (fun k'' => s (ix2 r k'')) :=
    fun k' => (keepdims_apply _ hc hb r k').trans (rowMax_f32_apply s hr hφ hmax r)
  have hE : ∀ k' : Fin b,
      exp (subf s (broadcastTo ⟨2, ![a, b]⟩ (shapeCast ⟨2, ![a, 1]⟩
          (multiReduction .maximumf [1] ⟨1, ![a]⟩ s 0xFF800000#32 hr hφ hmax) hc) hb)) (ix2 r k')
        = Ideal.exp (s (ix2 r k') - (Finset.univ : Finset (Fin b)).fold max (Ideal.ofBits .f32 0xFF800000#32) (fun k'' => s (ix2 r k''))) :=
    fun k' => congrArg (fun m => Ideal.exp (s (ix2 r k') - m)) (hM k')
  refine (congrArg (Ideal.div _) ((keepdims_apply _ hc hb r k).trans (rowSum_f32_apply _ hr hφ hadd r))).trans ?_
  rw [hE k]
  exact congrArg (Ideal.div _) (Finset.sum_congr rfl fun k' _ => hE k')

end Cert.Lib.SoftmaxRows

end
-- ==== Proof.KernelPayload.lean ====
/-
  What one grid point stores, as a function of the three blocks it loads.

  The body loads a block of 512 query rows and all 2048 key and value rows of one batch. Entry (r, d) of the stored
  block is the softmax-weighted sum over the 2048 keys of value column d, the score of query row r against key row k
  being the contraction over the 64 features of the query entry scaled by 0.125 with the key entry. The changes of
  format on the way into the two matrix products are the identity on extended reals, both products accumulate into
  zero, and the row statistics are laid out as columns and repeated along rows: none of that changes a value.
-/
import proofs.«135618_j57827439673579_2_alg».proof.Proof.Gen.KernelIdeal.Skeleton
import proofs.«135618_j57827439673579_2_alg».proof.Proof.AttnSpec
import proofs.«135618_j57827439673579_2_alg».proof.Proof.LibDotSum
import proofs.«135618_j57827439673579_2_alg».proof.Proof.LibSoftmaxRows
import Idealize.ShloMosaic.Lib.ValueLayout

noncomputable section

namespace Cert.KernelIdeal.Payload

open Cert.KernelIdeal Cert.KernelIdeal.Gen Idealize.ShloMosaic Idealize.ShloMosaic.ValueIdx
open Cert.Attn Cert.Lib.SoftmaxRows Idealize.ShloMosaic.DotSum

/-! ## Where the two products read their operands -/

theorem qk_lhs0 (i : S512x2048.Idx) (q : dot_S512x64_S2048x64_S512x2048_1_1_0_0_n_n.contr.Idx) : (dot_S512x64_S2048x64_S512x2048_1_1_0_0_n_n.lhsIdx i q 0).val = (i 0).val := by
  unfold DotDims.lhsIdx
  rw [dif_neg (show ¬(0 : Fin S512x64.rank) ∈ dot_S512x64_S2048x64_S512x2048_1_1_0_0_n_n.lhsBatch by decide),
    dif_pos (show (0 : Fin S512x64.rank) ∈ dot_S512x64_S2048x64_S512x2048_1_1_0_0_n_n.lhsNonContracting by decide)]
  rfl
theorem qk_lhs1 (i : S512x2048.Idx) (q : dot_S512x64_S2048x64_S512x2048_1_1_0_0_n_n.contr.Idx) : (dot_S512x64_S2048x64_S512x2048_1_1_0_0_n_n.lhsIdx i q 1).val = (q ⟨0, by decide⟩).val :=
  dot_S512x64_S2048x64_S512x2048_1_1_0_0_n_n.lhsIdx_val_of_single rfl i q
theorem qk_rhs0 (i : S512x2048.Idx) (q : dot_S512x64_S2048x64_S512x2048_1_1_0_0_n_n.contr.Idx) : (dot_S512x64_S2048x64_S512x2048_1_1_0_0_n_n.rhsIdx i q 0).val = (i 1).val := by
  unfold DotDims.rhsIdx
  rw [dif_neg (show ¬(0 : Fin S2048x64.rank) ∈ dot_S512x64_S2048x64_S512x2048_1_1_0_0_n_n.rhsBatch by decide),
    dif_pos (show (0 : Fin S2048x64.rank) ∈ dot_S512x64_S2048x64_S512x2048_1_1_0_0_n_n.rhsNonContracting by decide)]
  rfl
theorem qk_rhs1 (i : S512x2048.Idx) (q : dot_S512x64_S2048x64_S512x2048_1_1_0_0_n_n.contr.Idx) : (dot_S512x64_S2048x64_S512x2048_1_1_0_0_n_n.rhsIdx i q 1).val = (q ⟨0, by decide⟩).val :=
  dot_S512x64_S2048x64_S512x2048_1_1_0_0_n_n.rhsIdx_val_of_single rfl i q

theorem pv_lhs0 (i : S512x64.Idx) (q : dot_S512x2048_S2048x64_S512x64_1_0_0_1_n_n.contr.Idx) : (dot_S512x2048_S2048x64_S512x64_1_0_0_1_n_n.lhsIdx i q 0).val = (i 0).val := by
  unfold DotDims.lhsIdx
  rw [dif_neg (show ¬(0 : Fin S512x2048.rank) ∈ dot_S512x2048_S2048x64_S512x64_1_0_0_1_n_n.lhsBatch by decide),
    dif_pos (show (0 : Fin S512x2048.rank) ∈ dot_S512x2048_S2048x64_S512x64_1_0_0_1_n_n.lhsNonContracting by decide)]
  rfl
theorem pv_lhs1 (i : S512x64.Idx) (q : dot_S512x2048_S2048x64_S512x64_1_0_0_1_n_n.contr.Idx) : (dot_S512x2048_S2048x64_S512x64_1_0_0_1_n_n.lhsIdx i q 1).val = (q ⟨0, by decide⟩).val :=
  dot_S512x2048_S2048x64_S512x64_1_0_0_1_n_n.lhsIdx_val_of_single rfl i q
theorem pv_rhs0 (i : S512x64.Idx) (q : dot_S512x2048_S2048x64_S512x64_1_0_0_1_n_n.contr.Idx) : (dot_S512x2048_S2048x64_S512x64_1_0_0_1_n_n.rhsIdx i q 0).val = (q ⟨0, by decide⟩).val :=
  dot_S512x2048_S2048x64_S512x64_1_0_0_1_n_n.rhsIdx_val_of_single rfl i q
theorem pv_rhs1 (i : S512x64.Idx) (q : dot_S512x2048_S2048x64_S512x64_1_0_0_1_n_n.contr.Idx) : (dot_S512x2048_S2048x64_S512x64_1_0_0_1_n_n.rhsIdx i q 1).val = (i 1).val := by
  unfold DotDims.rhsIdx
  rw [dif_neg (show ¬(1 : Fin S2048x64.rank) ∈ dot_S512x2048_S2048x64_S512x64_1_0_0_1_n_n.rhsBatch by decide),
    dif_pos (show (1 : Fin S2048x64.rank) ∈ dot_S512x2048_S2048x64_S512x64_1_0_0_1_n_n.rhsNonContracting by decide)]
  rfl

/-- The first product, queries against keys contracted over the features, at (r, k). -/
theorem qk_apply (x : FVec Ideal S512x64 .bf16) (y : FVec Ideal S2048x64 .bf16) (r : Fin 512) (k : Fin 2048) :
    matmul dot_S512x64_S2048x64_S512x2048_1_1_0_0_n_n none x y (constant S512x2048 .f32 0x00000000#32) (ix2 r k)
      = ∑ d : Fin 64, x (ix2 r d) * y (ix2 k d) :=
  matmul_zero_eq_sum dot_S512x64_S2048x64_S512x2048_1_1_0_0_n_n 64 rfl rfl x y (ix2 r k) (fun d => ix2 r d) (fun d => ix2 k d)
    (fun d => funext fun a => Fin.ext (by
      have hd := contrEquiv1_symm_val dot_S512x64_S2048x64_S512x2048_1_1_0_0_n_n 64 rfl rfl d
      match a with
      | ⟨0, _⟩ => exact qk_lhs0 _ _
      | ⟨1, _⟩ => exact (qk_lhs1 _ _).trans hd))
    (fun d => funext fun a => Fin.ext (by
      have hd := contrEquiv1_symm_val dot_S512x64_S2048x64_S512x2048_1_1_0_0_n_n 64 rfl rfl d
      match a with
      | ⟨0, _⟩ => exact qk_rhs0 _ _
      | ⟨1, _⟩ => exact (qk_rhs1 _ _).trans hd))

/-- The second product, weights against values contracted over the keys, at (r, d). -/
theorem pv_apply (w : FVec Ideal S512x2048 .bf16) (y : FVec Ideal S2048x64 .bf16) (r : Fin 512) (d : Fin 64) :
    matmul dot_S512x2048_S2048x64_S512x64_1_0_0_1_n_n none w y (constant S512x64 .f32 0x00000000#32) (ix2 r d)
      = ∑ k : Fin 2048, w (ix2 r k) * y (ix2 k d) :=
  matmul_zero_eq_sum dot_S512x2048_S2048x64_S512x64_1_0_0_1_n_n 2048 rfl rfl w y (ix2 r d) (fun k => ix2 r k) (fun k => ix2 k d)
    (fun k => funext fun a => Fin.ext (by
      have hk := contrEquiv1_symm_val dot_S512x2048_S2048x64_S512x64_1_0_0_1_n_n 2048 rfl rfl k
      match a with
      | ⟨0, _⟩ => exact pv_lhs0 _ _
      | ⟨1, _⟩ => exact (pv_lhs1 _ _).trans hk))
    (fun k => funext fun a => Fin.ext (by
      have hk := contrEquiv1_symm_val dot_S512x2048_S2048x64_S512x64_1_0_0_1_n_n 2048 rfl rfl k
      match a with
      | ⟨0, _⟩ => exact (pv_rhs0 _ _).trans hk
      | ⟨1, _⟩ => exact pv_rhs1 _ _))

/-- The stored block at (u, r, d): the softmax over the scores of query row r, contracted with value column d. -/
theorem pay_apply (x0 : FVec Ideal S1x512x64 .f32) (x1 x2 : FVec Ideal S1x2048x64 .f32) (u : Fin 1) (r : Fin 512) (d : Fin 64) :
    k0_pay1 (F := Ideal) x0 x1 x2 (ix3 u r d)
      = softmaxDot botLit
          (fun k : Fin 2048 => ∑ d' : Fin 64, (x0 (ix3 (0 : Fin 1) r d') * scaleLit) * x1 (ix3 (0 : Fin 1) k d'))
          (fun k : Fin 2048 => x2 (ix3 (0 : Fin 1) k d)) := by
  unfold k0_pay1
  refine (shapeCast_ab_1ab_apply _ shapeCasts_S512x64_S1x512x64 u r d).trans ?_
  refine (pv_apply _ _ r d).trans ?_
  unfold softmaxDot
  refine Finset.sum_congr rfl fun k _ => ?_
  refine congr (congrArg HMul.hMul ?_) (shapeCast_1ab_ab_apply x2 shapeCasts_S1x2048x64_S2048x64 k d)
  refine (softmax_rows_apply _ reduces_S512x2048_S512 (.inl rfl) rfl rfl shapeCasts_S512_S512x1
    broadcasts_S512x1_S512x2048 r k).trans ?_
  have hs : ∀ k' : Fin 2048,
      matmul dot_S512x64_S2048x64_S512x2048_1_1_0_0_n_n none
          (truncf .bf16 (mulf (shapeCast S512x64 x0 shapeCasts_S1x512x64_S512x64)
            (broadcast S512x64 (Scalar.ofBits .f32 0x3E000000#32))) bitsLt_bf16_f32)
          (truncf .bf16 (shapeCast S2048x64 x1 shapeCasts_S1x2048x64_S2048x64) bitsLt_bf16_f32)
          (constant S512x2048 .f32 0x00000000#32) (ix2 r k')
        = ∑ d' : Fin 64, (x0 (ix3 (0 : Fin 1) r d') * scaleLit) * x1 (ix3 (0 : Fin 1) k' d') := fun k' => by
    refine (qk_apply _ _ r k').trans (Finset.sum_congr rfl fun d' _ => ?_)
    exact congr (congrArg HMul.hMul (congrArg (· * scaleLit) (shapeCast_1ab_ab_apply x0 shapeCasts_S1x512x64_S512x64 r d')))
      (shapeCast_1ab_ab_apply x1 shapeCasts_S1x2048x64_S2048x64 k' d')
  simp only [hs]

/-- If the three loaded blocks are query rows, key rows and value rows of batch `b` of three arrays — the query block
    row `r` being row `q` of the array — then the stored block at (u, r, d) is G of the arrays at (b, q, d). -/
theorem point_eq (A0 A1 A2 : SArg.Idx → EReal) (x0 : FVec Ideal S1x512x64 .f32) (x1 x2 : FVec Ideal S1x2048x64 .f32)
    (b : Fin 16) (q : Fin 2048) (u : Fin 1) (r : Fin 512) (d : Fin 64)
    (h0 : ∀ d' : Fin 64, x0 (ix3 (0 : Fin 1) r d') = A0 (ix3 b q d'))
    (h1 : ∀ (k : Fin 2048) (d' : Fin 64), x1 (ix3 (0 : Fin 1) k d') = A1 (ix3 b k d'))
    (h2 : ∀ k : Fin 2048, x2 (ix3 (0 : Fin 1) k d) = A2 (ix3 b k d)) :
    k0_pay1 (F := Ideal) x0 x1 x2 (ix3 u r d) = G A0 A1 A2 (ix3 b q d) := by
  rw [pay_apply, G_ix3]
  unfold attn score
  simp only [h0, h1, h2]

end Cert.KernelIdeal.Payload

end
-- ==== Proof.KernelValue.lean ====
/-
  From the blocks to the whole array.

  The grid has 16 · 4 points; point t works on batch t / 4 and on query rows (t % 4) · 512 … (t % 4) · 512 + 511 of
  that batch, with all 2048 key and value rows of the batch. Its stored block is therefore the restriction of G of
  the three argument arrays to batch t / 4 and those 512 rows. Every index (b, q, d) of the result lies in the
  block of point 4·b + q / 512, so the result array ends holding G of the arguments.
-/
import proofs.«135618_j57827439673579_2_alg».proof.Proof.Gen.KernelIdeal.Value
import proofs.«135618_j57827439673579_2_alg».proof.Proof.KernelPayload

set_option maxRecDepth 16384

noncomputable section

namespace Cert.KernelIdeal.ArrayValue

open Cert.KernelIdeal Cert.KernelIdeal.Gen Idealize.ShloMosaic Idealize.ShloMosaic.TcCoe Idealize.SL.Sem
open Idealize.ShloMosaic.ValueIdx Cert.Attn Cert.KernelIdeal.Payload
open Idealize.ShloMosaic.Pipeline (Dat)

variable (m : (ℓ : Loc nD τ sig) → Buf (Elt Ideal) ℓ) (ρ : Dev nD → PrngReg)

theorem hz : (![0, 0, 0] : Fin 3 → Nat) = fun _ => 0 := funext fun a => by fin_cases a <;> rfl

/-- The block index of each window at each grid point: the batch is t / 4 for all four; the query and output windows
    move along the rows with t % 4; the key and value windows stay at the top. -/
theorem idx_facts : ∀ t : Fin cfg0.N,
    win0_0.index t (0 : Fin 3) = t.val / 4 ∧ win0_0.index t (1 : Fin 3) = t.val % 4 ∧ win0_0.index t (2 : Fin 3) = 0
    ∧ win0_1.index t (0 : Fin 3) = t.val / 4 ∧ win0_1.index t (1 : Fin 3) = 0 ∧ win0_1.index t (2 : Fin 3) = 0
    ∧ win0_2.index t (0 : Fin 3) = t.val / 4 ∧ win0_2.index t (1 : Fin 3) = 0 ∧ win0_2.index t (2 : Fin 3) = 0
    ∧ win0_3.index t (0 : Fin 3) = t.val / 4 ∧ win0_3.index t (1 : Fin 3) = t.val % 4 ∧ win0_3.index t (2 : Fin 3) = 0 :=
  (by decide +kernel : ∀ t : Fin grid0.N, _)

/-- What point `t` writes back is block `t` of G of the argument arrays. -/
theorem flushed_eq (c : Dev nD) (t : Fin cfg0.N) :
    (dats m 0 c).flushed 3 t
      = ((cfg0.win 3).blk t).view.read (Elt Ideal) (G (V m c main_arg0) (V m c main_arg1) (V m c main_arg2)) := by
  rw [Cert.KernelIdeal.Value.flushed3]
  unfold out0_3
  rw [View.canon_unit_zero hz]
  simp only [View.ld_unit_zero (S := S1x512x64) hz, View.ld_unit_zero (S := S1x2048x64) hz]
  funext j
  obtain ⟨u, r, d, rfl⟩ : ∃ (u : Fin 1) (r : Fin 512) (d : Fin 64), j = ix3 u r d := ⟨j 0, j 1, j 2, eq_ix3 j⟩
  have hN : t.val < 64 := lt_of_lt_of_eq t.isLt N_0
  have hu : u.val = 0 := by omega
  obtain ⟨e00, e01, e02, e10, e11, e12, e20, e21, e22, e30, e31, e32⟩ := idx_facts t
  have hemb : ((cfg0.win 3).blk t).view.emb (ix3 u r d)
      = ix3 (⟨t.val / 4, by omega⟩ : Fin 16) (⟨t.val % 4 * 512 + r.val, by omega⟩ : Fin 2048) d := by
    funext a; apply Fin.ext
    match a with
    | ⟨0, _⟩ => show win0_3.index t (0 : Fin 3) * 1 + 1 * u.val = t.val / 4; omega
    | ⟨1, _⟩ => show win0_3.index t (1 : Fin 3) * 512 + 1 * r.val = t.val % 4 * 512 + r.val; omega
    | ⟨2, _⟩ => show win0_3.index t (2 : Fin 3) * 64 + 1 * d.val = d.val; omega
  refine (point_eq (V m c main_arg0) (V m c main_arg1) (V m c main_arg2) (iblk m c 0 t) (iblk m c 1 t) (iblk m c 2 t)
    (⟨t.val / 4, by omega⟩ : Fin 16) (⟨t.val % 4 * 512 + r.val, by omega⟩ : Fin 2048) u r d ?_ ?_ ?_).trans
    (congrArg (G (V m c main_arg0) (V m c main_arg1) (V m c main_arg2)) hemb.symm)
  · intro d'
    show V m c main_arg0 (((cfg0.win 0).blk t).view.emb (ix3 (0 : Fin 1) r d')) = V m c main_arg0 _
    refine congrArg (V m c main_arg0) (funext fun a => Fin.ext ?_)
    match a with
    | ⟨0, _⟩ => show win0_0.index t (0 : Fin 3) * 1 + 1 * 0 = t.val / 4; omega
    | ⟨1, _⟩ => show win0_0.index t (1 : Fin 3) * 512 + 1 * r.val = t.val % 4 * 512 + r.val; omega
    | ⟨2, _⟩ => show win0_0.index t (2 : Fin 3) * 64 + 1 * d'.val = d'.val; omega
  · intro k d'
    show V m c main_arg1 (((cfg0.win 1).blk t).view.emb (ix3 (0 : Fin 1) k d')) = V m c main_arg1 _
    refine congrArg (V m c main_arg1) (funext fun a => Fin.ext ?_)
    match a with
    | ⟨0, _⟩ => show win0_1.index t (0 : Fin 3) * 1 + 1 * 0 = t.val / 4; omega
    | ⟨1, _⟩ => show win0_1.index t (1 : Fin 3) * 2048 + 1 * k.val = k.val; omega
    | ⟨2, _⟩ => show win0_1.index t (2 : Fin 3) * 64 + 1 * d'.val = d'.val; omega
  · intro k
    show V m c main_arg2 (((cfg0.win 2).blk t).view.emb (ix3 (0 : Fin 1) k d)) = V m c main_arg2 _
    refine congrArg (V m c main_arg2) (funext fun a => Fin.ext ?_)
    match a with
    | ⟨0, _⟩ => show win0_2.index t (0 : Fin 3) * 1 + 1 * 0 = t.val / 4; omega
    | ⟨1, _⟩ => show win0_2.index t (1 : Fin 3) * 2048 + 1 * k.val = k.val; omega
    | ⟨2, _⟩ => show win0_2.index t (2 : Fin 3) * 64 + 1 * d.val = d.val; omega

/-- An index of the result array is in point `t`'s block iff each coordinate is in the block's range on its axis. -/
theorem mem_blk (t : Fin cfg0.N) (i : S16x2048x64.Idx) :
    i ∈ ((cfg0.win 3).blk t).view.set
      ↔ ∀ a : Fin 3, win0_3.index t a * S1x512x64.size a ≤ (i a).val ∧ (i a).val < win0_3.index t a * S1x512x64.size a + S1x512x64.size a := by
  show i ∈ ((View.whole main_v0).slice (win0_3.rect t)).set ↔ _
  rw [View.set_slice_whole, Rect.mem_set_unit]
  exact Iff.rfl

/-- Every index of the result array lies in the block of the point of its batch and its run of 512 rows. -/
theorem cover (i : S16x2048x64.Idx) :
    ∃ t : Fin cfg0.N, (cfg0.win 3).flush t = true ∧ i ∈ ((cfg0.win 3).blk t).view.set := by
  have h0 : (i 0).val < 16 := (i 0).isLt
  have h1 : (i 1).val < 2048 := (i 1).isLt
  have h2 : (i 2).val < 64 := (i 2).isLt
  have hlt : (i 0).val * 4 + (i 1).val / 512 < cfg0.N := by
    show (i 0).val * 4 + (i 1).val / 512 < grid0.N
    rw [N_0]; omega
  refine ⟨⟨(i 0).val * 4 + (i 1).val / 512, hlt⟩, flush0_3 _, ?_⟩
  rw [mem_blk]
  obtain ⟨-, -, -, -, -, -, -, -, -, e30, e31, e32⟩ := idx_facts ⟨(i 0).val * 4 + (i 1).val / 512, hlt⟩
  have e30' : win0_3.index ⟨(i 0).val * 4 + (i 1).val / 512, hlt⟩ (0 : Fin 3) = ((i 0).val * 4 + (i 1).val / 512) / 4 := e30
  have e31' : win0_3.index ⟨(i 0).val * 4 + (i 1).val / 512, hlt⟩ (1 : Fin 3) = ((i 0).val * 4 + (i 1).val / 512) % 4 := e31
  intro a
  match a with
  | ⟨0, _⟩ =>
    show win0_3.index ⟨(i 0).val * 4 + (i 1).val / 512, hlt⟩ (0 : Fin 3) * 1 ≤ (i 0).val
      ∧ (i 0).val < win0_3.index ⟨(i 0).val * 4 + (i 1).val / 512, hlt⟩ (0 : Fin 3) * 1 + 1
    omega
  | ⟨1, _⟩ =>
    show win0_3.index ⟨(i 0).val * 4 + (i 1).val / 512, hlt⟩ (1 : Fin 3) * 512 ≤ (i 1).val
      ∧ (i 1).val < win0_3.index ⟨(i 0).val * 4 + (i 1).val / 512, hlt⟩ (1 : Fin 3) * 512 + 512
    omega
  | ⟨2, _⟩ =>
    show win0_3.index ⟨(i 0).val * 4 + (i 1).val / 512, hlt⟩ (2 : Fin 3) * 64 ≤ (i 2).val
      ∧ (i 2).val < win0_3.index ⟨(i 0).val * 4 + (i 1).val / 512, hlt⟩ (2 : Fin 3) * 64 + 64
    omega

/-- The result array after the run is G of the argument arrays as launched. -/
theorem final (c : Dev nD) :
    (dats m 0 c).arrAt 3 cfg0.N
      = G (m ((c : Thread nD τ).loc main_arg0)) (m ((c : Thread nD τ).loc main_arg1)) (m ((c : Thread nD τ).loc main_arg2)) :=
  (dats m 0 c).arrAt_eq_of_cover 3 (G (V m c main_arg0) (V m c main_arg1) (V m c main_arg2))
    (fun t _ => flushed_eq m c t) cover

/-- The run re-posted: the result array at G of the arguments, the arguments unchanged. -/
theorem run : θ_run defs (onTc (τ := τ) (main (F := Ideal))) ⟨m, fun _ => 0, ρ⟩ fun r => ∀ c : Dev nD,
      r.2.mem ((c : Thread nD τ).loc main_v0)
        = G (m ((c : Thread nD τ).loc main_arg0)) (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩)
    (Cert.KernelIdeal.Value.run_blocks m ρ)

end Cert.KernelIdeal.ArrayValue

end
-- ==== Proof.RefValue.lean ====
/-
  The reference computes G.

  Read one operation at a time at a batch b, a query row q and a key row k: the scaled contraction of query row q
  with key row k is the score s(b,q,k) (this is where real-valued inputs are used); the row maximum, taken once
  more against minus infinity, is the fold of max over the scores of row (b,q); the exponentials, their row sum
  (started from zero) and the quotient are the softmax weights; and the final contraction with the values is
  the weighted sum over k. Index by index that is G.
-/
import proofs.«135618_j57827439673579_2_alg».proof.Proof.Gen.ReferenceIdeal.Read
import proofs.«135618_j57827439673579_2_alg».proof.Proof.AttnSpec
import proofs.«135618_j57827439673579_2_alg».proof.Proof.LibRowMax

noncomputable section

namespace Cert.ReferenceIdeal.RefValue

open Cert.ReferenceIdeal Cert.ReferenceIdeal.Read Idealize.ShloMosaic Idealize.ShloMosaic.ValueIdx
open Cert.Attn Cert.LibFiniteOps Cert.Lib.RowMax

/-! ## The positions each stage reads -/

theorem lidx2 (b : Fin 16) (q k : Fin 2048) (d : Fin 64) : lidx_main_v2 (ix3 b q k) d = ix3 b q d :=
  funext fun a => Fin.ext (by match a with | ⟨0, _⟩ => rfl | ⟨1, _⟩ => rfl | ⟨2, _⟩ => rfl)
theorem ridx2 (b : Fin 16) (q k : Fin 2048) (d : Fin 64) : ridx_main_v2 (ix3 b q k) d = ix3 b k d :=
  funext fun a => Fin.ext (by match a with | ⟨0, _⟩ => rfl | ⟨1, _⟩ => rfl | ⟨2, _⟩ => rfl)
theorem idx9 (b : Fin 16) (q k : Fin 2048) : idx_main_v9 (ix3 b q k) = ix3 b q (0 : Fin 1) :=
  funext fun a => Fin.ext (by match a with | ⟨0, _⟩ => rfl | ⟨1, _⟩ => rfl | ⟨2, _⟩ => rfl)
theorem idx8 (b : Fin 16) (q : Fin 2048) (u : Fin 1) : idx_main_v8 (ix3 b q u) = ix2 b q :=
  funext fun a => Fin.ext (by match a with | ⟨0, _⟩ => rfl | ⟨1, _⟩ => rfl)
theorem idx14 (b : Fin 16) (q k : Fin 2048) : idx_main_v14 (ix3 b q k) = ix3 b q (0 : Fin 1) :=
  funext fun a => Fin.ext (by match a with | ⟨0, _⟩ => rfl | ⟨1, _⟩ => rfl | ⟨2, _⟩ => rfl)
theorem idx13 (b : Fin 16) (q : Fin 2048) (u : Fin 1) : idx_main_v13 (ix3 b q u) = ix2 b q :=
  funext fun a => Fin.ext (by match a with | ⟨0, _⟩ => rfl | ⟨1, _⟩ => rfl)
theorem idx12 (b : Fin 16) (q k : Fin 2048) : idx_main_v12 (ix2 b q) k = ix3 b q k :=
  funext fun a => Fin.ext (by match a with | ⟨0, _⟩ => rfl | ⟨1, _⟩ => rfl | ⟨2, _⟩ => rfl)
theorem lidx16 (b : Fin 16) (q : Fin 2048) (d : Fin 64) (k : Fin 2048) : lidx_main_v16 (ix3 b q d) k = ix3 b q k :=
  funext fun a => Fin.ext (by match a with | ⟨0, _⟩ => rfl | ⟨1, _⟩ => rfl | ⟨2, _⟩ => rfl)
theorem ridx16 (b : Fin 16) (q : Fin 2048) (d : Fin 64) (k : Fin 2048) : ridx_main_v16 (ix3 b q d) k = ix3 b k d :=
  funext fun a => Fin.ext (by match a with | ⟨0, _⟩ => rfl | ⟨1, _⟩ => rfl | ⟨2, _⟩ => rfl)

variable (Q K V : FVec Ideal S16x2048x64 .f32)

/-! ## The stages -/

/-- The scaled contraction is the score. -/
theorem scores_apply (hQ : AllReal Q) (hK : AllReal K) (b : Fin 16) (q k : Fin 2048) :
    val_main_v4 (F := Ideal) Q K (ix3 b q k) = score Q K b q k := by
  rw [val_main_v4_apply, val_main_v2_apply, val_main_v3_apply, val_main_v1_apply, val_main_cst_0_apply,
    val_main_v0_apply, val_main_cst_apply]
  simp only [lidx2, ridx2]
  exact score_eq Q K hQ hK b q k

/-- The row maximum, taken once more against minus infinity, is the fold of max over the row. -/
theorem rowmax_apply (b : Fin 16) (q : Fin 2048) :
    val_main_v7 (F := Ideal) Q K (ix2 b q)
      = (Finset.univ : Finset (Fin 2048)).fold max botLit (fun k => val_main_v4 (F := Ideal) Q K (ix3 b q k)) := by
  rw [val_main_v7_apply, val_main_v6_apply, val_main_cst_2_apply]
  unfold val_main_v5
  refine (congrArg (max botLit) (hostRowMax3_apply (val_main_v4 (F := Ideal) Q K) (val_main_cst_1 (F := Ideal))
    Facts₀.reducesTo_S16x2048x2048_S16x2048_d2 (by decide) Facts₀.h_S_ b q)).trans ?_
  exact max_fold_self botLit _

/-- The exponential of a score less its row's maximum. -/
theorem exps_apply (b : Fin 16) (q k : Fin 2048) :
    val_main_v11 (F := Ideal) Q K (ix3 b q k)
      = Ideal.exp (val_main_v4 (F := Ideal) Q K (ix3 b q k) - val_main_v7 (F := Ideal) Q K (ix2 b q)) := by
  rw [val_main_v11_apply, val_main_v10_apply, val_main_v9_apply, idx9, val_main_v8_apply, idx8]
  rfl

/-- The row sum of the exponentials, started from zero. -/
theorem rowsum_apply (b : Fin 16) (q : Fin 2048) :
    val_main_v12 (F := Ideal) Q K (ix2 b q) = ∑ k : Fin 2048, val_main_v11 (F := Ideal) Q K (ix3 b q k) := by
  rw [val_main_v12_apply, val_main_cst_3_apply]
  simp only [idx12]
  show Ideal.ofBits .f32 0x00000000#32 + _ = _
  rw [Ideal.ofBits_zero_f32, zero_add]

/-- The softmax weight. -/
theorem weights_apply (b : Fin 16) (q k : Fin 2048) :
    val_main_v15 (F := Ideal) Q K (ix3 b q k)
      = Ideal.div (val_main_v11 (F := Ideal) Q K (ix3 b q k)) (∑ k' : Fin 2048, val_main_v11 (F := Ideal) Q K (ix3 b q k')) := by
  rw [val_main_v15_apply, val_main_v14_apply, idx14, val_main_v13_apply, idx13, rowsum_apply]
  rfl

/-! ## The result -/

/-- On real-valued queries and keys the reference's result is G of the arguments. -/
theorem ref_eq (hQ : AllReal Q) (hK : AllReal K) : val_main_v16 (F := Ideal) Q K V = G Q K V := by
  funext i
  obtain ⟨b, q, d, rfl⟩ : ∃ (b : Fin 16) (q : Fin 2048) (d : Fin 64), i = ix3 b q d := ⟨i 0, i 1, i 2, eq_ix3 i⟩
  rw [val_main_v16_apply, G_ix3]
  unfold attn softmaxDot
  refine Finset.sum_congr rfl fun k _ => ?_
  rw [lidx16, ridx16, weights_apply]
  simp only [exps_apply, rowmax_apply, scores_apply Q K hQ hK]

end Cert.ReferenceIdeal.RefValue

end
-- ==== Proof.FiniteInputs.lean ====
/-
  From the precondition to real-valued inputs.

  The precondition is the conjunction, over the three argument arrays, of "every entry's absolute value compares
  strictly below plus infinity", each conjunct folded by `and` over the whole array. If the conjunction is true then
  each fold is true, so every comparison is true, and an extended real whose absolute value is below plus infinity
  is a real number. Hence each of the three arrays consists of real numbers.
-/
import proofs.«135618_j57827439673579_2_alg».proof.Pre_finite_inputs
import proofs.«135618_j57827439673579_2_alg».proof.Proof.LibFiniteOps
import Idealize.ShloMosaic.Lib.ReduceAll
import Idealize.ShloMosaic.Lib.ValueIdx

noncomputable section

namespace Cert.FiniteInputs

open Idealize.ShloMosaic Idealize.ShloMosaic.ValueIdx Cert.LibFiniteOps Cert.Pre_finite_inputs

instance : Subsingleton S_.Idx := ⟨fun a b => funext fun d => d.elim0⟩

variable [Cert.Pre_finite_inputs.Facts]

/-- If the precondition holds of three arrays of extended reals, each of them is an array of real numbers. -/
theorem allReal_of_pre (x0 x1 x2 : FVec Ideal S16x2048x64 .f32)
    (h : Cert.Pre_finite_inputs.fn (F := Ideal) x0 x1 x2 = fun _ => 1#1) :
    AllReal x0 ∧ AllReal x1 ∧ AllReal x2 := by
  have h0 := congrFun h ix0
  dsimp only [Cert.Pre_finite_inputs.fn] at h0
  obtain ⟨h01, h2⟩ := IntOp.andi_eq_one.1 h0
  obtain ⟨h0', h1⟩ := IntOp.andi_eq_one.1 h01
  have hinf : ∀ i : S16x2048x64.Idx,
      broadcastInDim S16x2048x64 ![] Facts.bcast_S_S16x2048x64 (constant (F := Ideal) S_ .f32 0x7F800000#32) i = (⊤ : EReal) :=
    fun _ => ofBits_7F800000
  exact ⟨allReal_of_abs_lt_top hinf (Host.reduce_andi_all _ _ _ _ _ h0'),
    allReal_of_abs_lt_top hinf (Host.reduce_andi_all _ _ _ _ _ h1),
    allReal_of_abs_lt_top hinf (Host.reduce_andi_all _ _ _ _ _ h2)⟩

end Cert.FiniteInputs

end
-- ==== Proof.lean ====
/-
  Scaled dot-product attention over float32[16, 2048, 64] queries, keys and values: a kernel that, per batch and per
  tile of 512 query rows, scales the queries by 0.125, contracts them with all 2048 keys, takes a full two-pass
  softmax along the keys and contracts the weights with the values — against a reference that contracts whole
  arrays, scales the scores by 1 / sqrt 64, and applies the same softmax and contraction.

  On the extended reals both compute one function G of the three arrays (Proof/AttnSpec.lean):
    * 1 / sqrt 64 is 1/8, the value of the kernel's literal;
    * scaling the query entries before the contraction or the contraction afterwards agree for real entries, which
      the precondition provides (Proof/FiniteInputs.lean);
    * the reference's second maximum against minus infinity and its sum started from zero change nothing;
    * a change of float format is the identity, and the tiles of 512 rows of the 16 batches cover the result.
  The kernel's array is G by Proof/KernelPayload.lean (one grid point) and Proof/KernelValue.lean (all of them); the
  reference's is G by Proof/RefValue.lean. The kernel's idealization rewrote nothing, so that claim is trivial.
-/
import proofs.«135618_j57827439673579_2_alg».proof.Defs
import proofs.«135618_j57827439673579_2_alg».proof.Proof.Gen.Kernel
import proofs.«135618_j57827439673579_2_alg».proof.Proof.Gen.Kernel.Skeleton
import proofs.«135618_j57827439673579_2_alg».proof.Proof.Gen.Kernel.Launch
import proofs.«135618_j57827439673579_2_alg».proof.Proof.Gen.Kernel.Points
import proofs.«135618_j57827439673579_2_alg».proof.Proof.Gen.Kernel.Frame
import proofs.«135618_j57827439673579_2_alg».proof.Proof.Gen.KernelIdeal
import proofs.«135618_j57827439673579_2_alg».proof.Proof.Gen.KernelIdeal.Skeleton
import proofs.«135618_j57827439673579_2_alg».proof.Proof.Gen.KernelIdeal.Launch
import proofs.«135618_j57827439673579_2_alg».proof.Proof.Gen.KernelIdeal.Points
import proofs.«135618_j57827439673579_2_alg».proof.Proof.Gen.KernelIdeal.Frame
import proofs.«135618_j57827439673579_2_alg».proof.Proof.Gen.ReferenceIdeal
import proofs.«135618_j57827439673579_2_alg».proof.Proof.Gen.Pre_finite_inputs
import proofs.«135618_j57827439673579_2_alg».proof.Proof.Gen.KernelIdeal.Value
import proofs.«135618_j57827439673579_2_alg».proof.Proof.Gen.ReferenceIdeal.Run
import proofs.«135618_j57827439673579_2_alg».proof.Proof.Gen.ReferenceIdeal.Read
import proofs.«135618_j57827439673579_2_alg».proof.Proof.KernelValue
import proofs.«135618_j57827439673579_2_alg».proof.Proof.RefValue
import proofs.«135618_j57827439673579_2_alg».proof.Proof.FiniteInputs
import Idealize.ShloMosaic.Adequacy
import Idealize.ShloMosaic.Init

noncomputable section

namespace Cert.Proof

open Idealize.ShloMosaic Idealize.ShloMosaic.TcCoe Idealize.SL.Sem

/-- The kernel as printed runs and leaves its arguments unchanged. -/
theorem frame_kernel : Cert.frame_Kernel := fun m ρ _ => Cert.Kernel.Gen.frame m ρ

/-- So does the kernel read on the extended reals. -/
theorem frame_kernelIdeal : Cert.frame_KernelIdeal := fun m ρ _ => Cert.KernelIdeal.Gen.frame m ρ

/-- So does the reference: its run with the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories agreeing on real-valued arguments both programs end with the result array at G of the arguments. -/
theorem algebraic : Cert.algebraic_KernelIdeal_ReferenceIdeal := by
  intro m ρ m' ρ' hpre hagree
  refine ⟨fun c => Cert.Attn.G (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)),
    Cert.KernelIdeal.ArrayValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v16_eq, (hagree c).1, (hagree c).2.1, (hagree c).2.2]
  obtain ⟨hQ, hK, -⟩ := Cert.FiniteInputs.allReal_of_pre _ _ _ (hpre c)
  exact Cert.ReferenceIdeal.RefValue.ref_eq _ _ _ hQ hK

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
